-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x1600000 : Shape := ⟨2, ![2, 1600000]⟩
abbrev S100000 : Shape := ⟨1, ![100000]⟩
abbrev S5x128 : Shape := ⟨2, ![5, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x5 .f32) (main_arg1 : IVec S2x1600000 32) (main_arg2 : IVec S100000 32) (main_arg3 : FVec F S5x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x128 .f32 := Host.absf main_arg3
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x5 : Shape := ⟨2, ![100000, 5]⟩
abbrev S2x1600000 : Shape := ⟨2, ![2, 1600000]⟩
abbrev S100000 : Shape := ⟨1, ![100000]⟩
abbrev S5x128 : Shape := ⟨2, ![5, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x5 : Shape := ⟨2, ![5000, 5]⟩
abbrev S5000x128 : Shape := ⟨2, ![5000, 128]⟩
abbrev S1700000x128 : Shape := ⟨2, ![1700000, 128]⟩
abbrev S1x128 : Shape := ⟨2, ![1, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 127
  | .vmem => 34
  | .smem => 0
  | _ => 0

abbrev bufTy : (tb : Table) → Fin (tcTables nBuf tb) → BufTy
  | .hbm, ⟨0, _⟩ => ⟨S100000x5, .f32⟩
  | .hbm, ⟨1, _⟩ => ⟨S2x1600000, .i32⟩
  | .hbm, ⟨2, _⟩ => ⟨S100000, .i32⟩
  | .hbm, ⟨3, _⟩ => ⟨S5x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S1700000x1, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x128, .f32⟩
  | .hbm, ⟨101, _⟩ => ⟨S1700000x128, .f32⟩
  | .hbm, ⟨102, _⟩ => ⟨S1700000x128, .f32⟩
  | .hbm, ⟨103, _⟩ => ⟨S_, .f32⟩
  | .hbm, ⟨104, _⟩ => ⟨S100000x128, .f32⟩
  | .hbm, ⟨105, _⟩ => ⟨S1700000x1, .i32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S_, .f32⟩
  | .hbm, ⟨110, _⟩ => ⟨S256x128, .f32⟩
  | .hbm, ⟨111, _⟩ => ⟨S100000x1, .i32⟩
  | .hbm, ⟨112, _⟩ => ⟨S256x128, .f32⟩
  | .hbm, ⟨113, _⟩ => ⟨S_, .f32⟩
  | .hbm, ⟨114, _⟩ => ⟨S100000, .f32⟩
  | .hbm, ⟨115, _⟩ => ⟨S_, .f32⟩
  | .hbm, ⟨116, _⟩ => ⟨S256, .f32⟩
  | .hbm, ⟨117, _⟩ => ⟨S100000x1, .i32⟩
  | .hbm, ⟨118, _⟩ => ⟨S256, .f32⟩
  | .hbm, ⟨119, _⟩ => ⟨S_, .f32⟩
  | .hbm, ⟨120, _⟩ => ⟨S256, .f32⟩
  | .hbm, ⟨121, _⟩ => ⟨S256, .f32⟩
  | .hbm, ⟨122, _⟩ => ⟨S256x1, .f32⟩
  | .hbm, ⟨123, _⟩ => ⟨S256x128, .f32⟩
  | .hbm, ⟨124, _⟩ => ⟨S256x128, .f32⟩
  | .hbm, ⟨125, _⟩ => ⟨S1x1, .f32⟩
  | .hbm, ⟨126, _⟩ => ⟨S256x1, .f32⟩
  | .local _ .vmem, ⟨0, _⟩ => ⟨S5000x5, .f32⟩
  | .local _ .vmem, ⟨1, _⟩ => ⟨S5000x5, .f32⟩
  | .local _ .vmem, ⟨2, _⟩ => ⟨S5x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S256x128, .f32⟩
  | .local _ .vmem, ⟨31, _⟩ => ⟨S128x1, .f32⟩
  | .local _ .vmem, ⟨32, _⟩ => ⟨S1x1, .f32⟩
  | .local _ .vmem, ⟨33, _⟩ => ⟨S256x1, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_17 : Ref sig .tc := ⟨.hbm, 113, rfl⟩
abbrev main_v81 : Ref sig .tc := ⟨.hbm, 114, rfl⟩
abbrev main_cst_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S1_S1x1 : S1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x5_S5x128_S5000x128_1_0_0_1_n_n_wf : DotDims.WF S5000x5 S5x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x128.size a ≤ S256x128.size a
  hwx6_0 : ∀ i : grid6.Coords, EltTy.bits .f32 = 32 ∨ (Rect.block (s := S256x128) S256x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x1.size a ≤ S128x1.size a
  hwx6_1 : ∀ i : grid6.Coords, EltTy.bits .f32 = 32 ∨ (Rect.block (s := S128x1) S128x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x1.size a ≤ S256x1.size a
  hwx6_3 : ∀ i : grid6.Coords, EltTy.bits .f32 = 32 ∨ (Rect.block (s := S256x1) S256x1.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S256x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S256x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x5 : Shape := ⟨2, ![100000, 5]⟩
abbrev S2x1600000 : Shape := ⟨2, ![2, 1600000]⟩
abbrev S100000 : Shape := ⟨1, ![100000]⟩
abbrev S5x128 : Shape := ⟨2, ![5, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S100000x5, .f32⟩
  | 1 => ⟨S2x1600000, .i32⟩
  | 2 => ⟨S100000, .i32⟩
  | 3 => ⟨S5x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S1700000x1, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x128, .f32⟩
  | 109 => ⟨S1700000x128, .f32⟩
  | 110 => ⟨S1700000x128, .f32⟩
  | 111 => ⟨S_, .f32⟩
  | 112 => ⟨S100000x128, .f32⟩
  | 113 => ⟨S1700000x1, .i32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S256x128, .f32⟩
  | 120 => ⟨S100000x1, .i32⟩
  | 121 => ⟨S256x128, .f32⟩
  | 122 => ⟨S_, .f32⟩
  | 123 => ⟨S100000, .f32⟩
  | 124 => ⟨S_, .f32⟩
  | 125 => ⟨S256, .f32⟩
  | 126 => ⟨S100000x1, .i32⟩
  | 127 => ⟨S256, .f32⟩
  | _ => ⟨S100000x5, .f32⟩

abbrev hbmTy0_1 (i : Nat) : BufTy := match i % 128 with
  | 0 => ⟨S_, .f32⟩
  | 1 => ⟨S256, .f32⟩
  | 2 => ⟨S256, .f32⟩
  | 3 => ⟨S256x1, .f32⟩
  | 4 => ⟨S256x128, .f32⟩
  | 5 => ⟨S256x128, .f32⟩
  | 6 => ⟨S256x1, .f32⟩
  | 7 => ⟨S1x1, .f32⟩
  | 8 => ⟨S256x1, .f32⟩
  | 9 => ⟨S256x1, .f32⟩
  | 10 => ⟨S256x1, .f32⟩
  | 11 => ⟨S256x1, .f32⟩
  | 12 => ⟨S_, .f32⟩
  | 13 => ⟨S256x1, .f32⟩
  | 14 => ⟨S256x1, .f32⟩
  | 15 => ⟨S_, .f32⟩
  | 16 => ⟨S256x1, .f32⟩
  | 17 => ⟨S256x1, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call2_cst : Ref sig .tc := ⟨.hbm, 96, rfl⟩
abbrev main_call2_v0 : Ref sig .tc := ⟨.hbm, 97, rfl⟩
abbrev main_v66 : Ref sig .tc := ⟨.hbm, 98, rfl⟩
abbrev main_v67 : Ref sig .tc := ⟨.hbm, 99, rfl⟩
abbrev main_c_13 : Ref sig .tc := ⟨.hbm, 100, rfl⟩
abbrev main_v68 : Ref sig .tc := ⟨.hbm, 101, rfl⟩
abbrev main_v69 : Ref sig .tc := ⟨.hbm, 102, rfl⟩
abbrev main_c_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_15 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_16 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_17 : Ref sig .tc := ⟨.hbm, 122, rfl⟩
abbrev main_v86 : Ref sig .tc := ⟨.hbm, 123, rfl⟩
abbrev main_cst_18 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_19 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_20 : Ref sig .tc := ⟨.hbm, 140, rfl⟩
abbrev main_v101 : Ref sig .tc := ⟨.hbm, 141, rfl⟩
abbrev main_v102 : Ref sig .tc := ⟨.hbm, 142, rfl⟩
abbrev main_cst_21 : Ref sig .tc := ⟨.hbm, 143, rfl⟩
abbrev main_v103 : Ref sig .tc := ⟨.hbm, 144, rfl⟩
abbrev main_v104 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x5_S5x128_S100000x128_1_0_0_1_n_n_wf : DotDims.WF S100000x5 S5x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x1_S256x1_1_0_0_1_n_n_wf : DotDims.WF S256x128 S128x1 S256x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x5_S5x128_S100000x128_1_0_0_1_n_n : DotDims S100000x5 S5x128 S100000x128 where
  lhsContracting := [1]
  rhsContracting := [0]
  lhsNonContracting := [0]
  rhsNonContracting := [1]
  lhsBatch := []
  rhsBatch := []
  wf := dot_S100000x5_S5x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KernelRun.lean ====
/-
  The kernel program's run with its result named. The program is seven pipelined regions among stretches of host
  operations; its memory after the last region is the last boundary of the fold of boundary contents (each stretch applied
  to the contents before it, each region's arrays replaced by what its write-backs leave). Every weakly fair execution
  terminates, without a fault, with the result buffer at that last boundary's contents and the eleven arguments as
  launched.
-/
import proofs.«141672_j25460566131065_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v91) = W14 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v91 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.Whole

end
-- ==== Proof.EntryLaws.lean ====
/-
  What the program's pipelined regions compute, entry by entry, on the extended reals.

  Three kinds of region occur. A dense projection multiplies a block of rows by a weight matrix: entry (r, q) of the
  product is the sum over k of a(r, k) * b(k, q); rounding the operands to a shorter float format first changes nothing
  on the extended reals. A bias step adds a row vector to every row, and the hidden layers then clip below at zero. The
  head multiplies by a single column, adds a scalar and applies the logistic function 1 / (1 + exp (-x)).

  Each is stated once as a function of whole arrays over arbitrary extents, and the bias and head bodies are read at an
  entry in the spelling the kernel bodies use (a self cast, a row vector or a scalar spread over the block).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.EntryLaws

open Idealize.ShloMosaic Idealize.ShloMosaic.ValueIdx

/-- The product of an [M, K] array by a [K, N] array: entry (r, q) is the sum over k of a(r, k) * b(k, q). -/
def prodAt {M K N : Nat} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

/-- Every row of x plus the row vector b. -/
def rowShift {M N : Nat} (x : (⟨2, ![M, N]⟩ : Shape).Idx → EReal) (b : (⟨2, ![1, N]⟩ : Shape).Idx → EReal) :
    (⟨2, ![M, N]⟩ : Shape).Idx → EReal :=
  fun i => x i + b (ix2 0 (i 1))

/-- Every row of x plus the row vector b, clipped below at zero. -/
def rowShiftClip {M N : Nat} (x : (⟨2, ![M, N]⟩ : Shape).Idx → EReal) (b : (⟨2, ![1, N]⟩ : Shape).Idx → EReal) :
    (⟨2, ![M, N]⟩ : Shape).Idx → EReal :=
  fun i => max (x i + b (ix2 0 (i 1))) 0

/-- The head: the logistic function of g times one column, plus a scalar. -/
def headAt {M K : Nat} (g : (⟨2, ![M, K]⟩ : Shape).Idx → EReal) (w : (⟨2, ![K, 1]⟩ : Shape).Idx → EReal)
    (b : (⟨2, ![1, 1]⟩ : Shape).Idx → EReal) : (⟨2, ![M, 1]⟩ : Shape).Idx → EReal :=
  fun i => Ideal.logistic ((∑ k : Fin K, g (ix2 (i 0) k) * w (ix2 k 0)) + b (ix2 0 0))

/-- A row vector [1, N] spread over [M, N], read at (r, q): the vector's entry q. -/
theorem spreadRow_apply {M N : Nat} (b : (⟨2, ![1, N]⟩ : Shape).Idx → EReal)
    (h : (⟨2, ![1, N]⟩ : Shape).Broadcasts ⟨2, ![M, N]⟩) (r : Fin M) (q : Fin N) :
    broadcastTo (⟨2, ![M, N]⟩ : Shape) b h (ix2 r q) = b (ix2 0 q) := by
  refine broadcastTo_apply b h (ix2 r q) (ix2 0 q) fun a => ?_
  match a with
  | ⟨0, _⟩ => simp [ix2]
  | ⟨1, _⟩ =>
    by_cases hN : N = 1
    · subst hN
      have : q = 0 := Subsingleton.elim _ _
      subst this
      simp [ix2]
    · simp [ix2, hN]

/-- The bias body with the clip, read at (r, q). -/
theorem shiftClip_body_apply {M N : Nat} (x : FVec Ideal ⟨2, ![M, N]⟩ .f32) (b : FVec Ideal ⟨2, ![1, N]⟩ .f32)
    (hx : (⟨2, ![M, N]⟩ : Shape).ShapeCasts ⟨2, ![M, N]⟩) (hb : (⟨2, ![1, N]⟩ : Shape).ShapeCasts ⟨2, ![1, N]⟩)
    (h : (⟨2, ![1, N]⟩ : Shape).Broadcasts ⟨2, ![M, N]⟩) (r : Fin M) (q : Fin N) :
    maximumf (addf (shapeCast ⟨2, ![M, N]⟩ x hx) (broadcastTo ⟨2, ![M, N]⟩ (shapeCast ⟨2, ![1, N]⟩ b hb) h))
        (broadcast ⟨2, ![M, N]⟩ (Scalar.ofBits (F := Ideal) .f32 0x00000000#32)) (ix2 r q)
      = max (x (ix2 r q) + b (ix2 0 q)) 0 := by
  rw [shapeCast_self, shapeCast_self]
  show max (x (ix2 r q) + broadcastTo (⟨2, ![M, N]⟩ : Shape) b h (ix2 r q)) (Ideal.ofBits .f32 0x00000000#32) = _
  rw [spreadRow_apply, Ideal.ofBits_zero_f32]

/-- The bias body without the clip, read at (r, q). -/
theorem shift_body_apply {M N : Nat} (x : FVec Ideal ⟨2, ![M, N]⟩ .f32) (b : FVec Ideal ⟨2, ![1, N]⟩ .f32)
    (hx : (⟨2, ![M, N]⟩ : Shape).ShapeCasts ⟨2, ![M, N]⟩) (hb : (⟨2, ![1, N]⟩ : Shape).ShapeCasts ⟨2, ![1, N]⟩)
    (h : (⟨2, ![1, N]⟩ : Shape).Broadcasts ⟨2, ![M, N]⟩) (r : Fin M) (q : Fin N) :
    addf (shapeCast ⟨2, ![M, N]⟩ x hx) (broadcastTo ⟨2, ![M, N]⟩ (shapeCast ⟨2, ![1, N]⟩ b hb) h) (ix2 r q)
      = x (ix2 r q) + b (ix2 0 q) := by
  rw [shapeCast_self, shapeCast_self]
  show x (ix2 r q) + broadcastTo (⟨2, ![M, N]⟩ : Shape) b h (ix2 r q) = _
  rw [spreadRow_apply]

end Cert.EntryLaws

end
-- ==== Proof.Bridge.lean ====
/-
  Where the kernel's regions meet the reference's stages. Each lemma takes the reference's own value of a stage as the
  region's input and shows that what the region computes from it, entry by entry, is the reference's next stage:
  a dense projection is the reference's dot_general (both are the sum over k of a(r, k) * w(k, q)); a bias step is the
  reference's two broadcasts of the bias, its add and, for the hidden layers, its maximum with a zero array; the head is
  the reference's dot_general, broadcasts, add and its spelling of the logistic function, 1 / (1 + exp (-x)), which is the
  definition of that function on the extended reals.
-/
import proofs.«141672_j25460566131065_1_alg».proof.Proof.RefReadPatched
import proofs.«141672_j25460566131065_1_alg».proof.Proof.EntryLaws
import Idealize.ShloMosaic.Lib.ValueLayout

noncomputable section

open scoped BigOperators

namespace Cert.Bridge

open Cert.ReferenceIdeal Cert.ReferenceIdeal.ReadP Cert.EntryLaws
open Idealize.ShloMosaic Idealize.ShloMosaic.ValueIdx

variable (x0 : (⟨S100000x5, .f32⟩ : BufTy).Contents (Elt Ideal)) (x1 : (⟨S2x1600000, .i32⟩ : BufTy).Contents (Elt Ideal))
  (x2 : (⟨S100000, .i32⟩ : BufTy).Contents (Elt Ideal)) (x3 : (⟨S5x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x1, .f32⟩ : BufTy).Contents (Elt Ideal))
  (x10 : (⟨S1, .f32⟩ : BufTy).Contents (Elt Ideal))

/-- The first projection is the reference's first dot_general. -/
theorem prod_v33 : prodAt (M := 100000) (K := 5) (N := 128) x0 x3
    = val_main_v33 (F := Ideal) x0 x3 := by
  funext i
  rw [val_main_v33_apply]
  unfold prodAt
  exact Finset.sum_congr rfl fun k _ => congrArg₂ (· * ·)
    (congrArg x0 (funext fun a => by match a with | ⟨0, _⟩ => rfl | ⟨1, _⟩ => rfl))
    (congrArg x3 (funext fun a => by match a with | ⟨0, _⟩ => rfl | ⟨1, _⟩ => rfl))

/-- The bias row added to every row, clipped below at zero, is the reference's stage %49: its two broadcasts read the
    bias entry of the column, and the kernel's reshape of the bias to one row reads the same entry. -/
theorem shift_v49 (h : (⟨1, ![128]⟩ : Shape).ShapeCasts ⟨2, ![1, 128]⟩) :
    rowShiftClip (M := 100000) (N := 128) (val_main_v45 (F := Ideal) x0 x1 x3) (shapeCast ⟨2, ![1, 128]⟩ x4 h)
      = val_main_v49 (F := Ideal) x0 x1 x3 x4 := by
  funext i
  rw [val_main_v49_apply, val_main_v48_apply, val_main_v47_apply, val_main_v46_apply, val_main_call1_v0_apply, val_main_call1_cst_apply]
  unfold rowShiftClip
  generalize val_main_v45 (F := Ideal) x0 x1 x3 = y
  rw [shapeCast_a_1a_apply x4 h 0 (i 1)]
  simp only [Ideal.maximumf_def, Ideal.addf_def, Ideal.ofBits_def, Ideal.ofBits_zero_f32]
  exact congrArg (fun t => max (y i + x4 t) 0) (funext fun a => by match a with | ⟨0, _⟩ => rfl)

/-- The second projection is the reference's second dot_general. -/
theorem prod_v50 : prodAt (M := 100000) (K := 128) (N := 128) (val_main_v49 (F := Ideal) x0 x1 x3 x4) x5
    = val_main_v50 (F := Ideal) x0 x1 x3 x4 x5 := by
  funext i
  rw [val_main_v50_apply]
  unfold prodAt
  generalize val_main_v49 (F := Ideal) x0 x1 x3 x4 = y
  exact Finset.sum_congr rfl fun k _ => congrArg₂ (· * ·)
    (congrArg y (funext fun a => by match a with | ⟨0, _⟩ => rfl | ⟨1, _⟩ => rfl))
    (congrArg x5 (funext fun a => by match a with | ⟨0, _⟩ => rfl | ⟨1, _⟩ => rfl))

/-- The bias row added to every row, clipped below at zero, is the reference's stage %66: its two broadcasts read the
    bias entry of the column, and the kernel's reshape of the bias to one row reads the same entry. -/
theorem shift_v66 (h : (⟨1, ![128]⟩ : Shape).ShapeCasts ⟨2, ![1, 128]⟩) :
    rowShiftClip (M := 100000) (N := 128) (val_main_v62 (F := Ideal) x0 x1 x3 x4 x5) (shapeCast ⟨2, ![1, 128]⟩ x6 h)
      = val_main_v66 (F := Ideal) x0 x1 x3 x4 x5 x6 := by
  funext i
  rw [val_main_v66_apply, val_main_v65_apply, val_main_v64_apply, val_main_v63_apply, val_main_call2_v0_apply, val_main_call2_cst_apply]
  unfold rowShiftClip
  generalize val_main_v62 (F := Ideal) x0 x1 x3 x4 x5 = y
  rw [shapeCast_a_1a_apply x6 h 0 (i 1)]
  simp only [Ideal.maximumf_def, Ideal.addf_def, Ideal.ofBits_def, Ideal.ofBits_zero_f32]
  exact congrArg (fun t => max (y i + x6 t) 0) (funext fun a => by match a with | ⟨0, _⟩ => rfl)

/-- The third projection is the reference's third dot_general. -/
theorem prod_v67 : prodAt (M := 100000) (K := 128) (N := 128) (val_main_v66 (F := Ideal) x0 x1 x3 x4 x5 x6) x7
    = val_main_v67 (F := Ideal) x0 x1 x3 x4 x5 x6 x7 := by
  funext i
  rw [val_main_v67_apply]
  unfold prodAt
  generalize val_main_v66 (F := Ideal) x0 x1 x3 x4 x5 x6 = y
  exact Finset.sum_congr rfl fun k _ => congrArg₂ (· * ·)
    (congrArg y (funext fun a => by match a with | ⟨0, _⟩ => rfl | ⟨1, _⟩ => rfl))
    (congrArg x7 (funext fun a => by match a with | ⟨0, _⟩ => rfl | ⟨1, _⟩ => rfl))

/-- The bias row added to every row is the reference's stage %82: its two broadcasts read the
    bias entry of the column, and the kernel's reshape of the bias to one row reads the same entry. -/
theorem shift_v82 (h : (⟨1, ![128]⟩ : Shape).ShapeCasts ⟨2, ![1, 128]⟩) :
    rowShift (M := 100000) (N := 128) (val_main_v79 (F := Ideal) x0 x1 x3 x4 x5 x6 x7) (shapeCast ⟨2, ![1, 128]⟩ x8 h)
      = val_main_v82 (F := Ideal) x0 x1 x3 x4 x5 x6 x7 x8 := by
  funext i
  rw [val_main_v82_apply, val_main_v81_apply, val_main_v80_apply]
  unfold rowShift
  generalize val_main_v79 (F := Ideal) x0 x1 x3 x4 x5 x6 x7 = y
  rw [shapeCast_a_1a_apply x8 h 0 (i 1)]
  simp only [Ideal.maximumf_def, Ideal.addf_def, Ideal.ofBits_def, Ideal.ofBits_zero_f32]
  exact congrArg (fun t => y i + x8 t) (funext fun a => by match a with | ⟨0, _⟩ => rfl)

/-- The head is the reference's last ten stages: the sum over k, the scalar bias read through two broadcasts (the kernel's
    reshape of it to [1, 1] reads the same entry), and 1 / (1 + exp (-x)), which is the logistic function. -/
theorem head_v104 (h : (⟨1, ![1]⟩ : Shape).ShapeCasts ⟨2, ![1, 1]⟩) :
    headAt (M := 256) (K := 128) (val_main_v94 (F := Ideal) x0 x1 x2 x3 x4 x5 x6 x7 x8) x9 (shapeCast ⟨2, ![1, 1]⟩ x10 h)
      = val_main_v104 (F := Ideal) x0 x1 x2 x3 x4 x5 x6 x7 x8 x9 x10 := by
  funext i
  rw [val_main_v104_apply, val_main_v103_apply, val_main_cst_21_apply, val_main_v102_apply, val_main_v101_apply,
    val_main_cst_20_apply, val_main_v100_apply, val_main_v99_apply, val_main_v98_apply, val_main_v97_apply,
    val_main_v96_apply, val_main_v95_apply]
  unfold headAt
  generalize val_main_v94 (F := Ideal) x0 x1 x2 x3 x4 x5 x6 x7 x8 = y
  rw [shapeCast_a_1a_apply x10 h 0 0]
  simp only [Ideal.ofBits_def, Ideal.ofBits_one_f32, Ideal.addf_def, Ideal.hostDivf_def, Ideal.hostUnary_exp_def,
    Ideal.hostNegf_def, Ideal.negf_def]
  have es : (∑ k : Fin 128, y (ix2 (i 0) k) * x9 (ix2 k 0))
      = ∑ k : Fin 128, y (lidx_main_v95 i k) * x9 (ridx_main_v95 i k) :=
    Finset.sum_congr rfl fun k _ => congrArg₂ (· * ·)
      (congrArg y (funext fun a => by match a with | ⟨0, _⟩ => rfl | ⟨1, _⟩ => rfl))
      (congrArg x9 (funext fun a => by
        match a with
        | ⟨0, _⟩ => rfl
        | ⟨1, _⟩ =>
          have h1 : (i 1).val < 1 := (i 1).isLt
          exact Fin.ext (by show (0 : Nat) = (i 1).val; omega)))
  have eb : x10 (ix1 0) = x10 (idx_main_v96 (idx_main_v97 i)) :=
    congrArg x10 (funext fun a => by match a with | ⟨0, _⟩ => rfl)
  unfold Ideal.logistic
  rw [es, eb]

end Cert.Bridge

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.Region0.lean ====
/-
  The first dense projection, from blocks to the whole array. The region walks twenty points; point t multiplies rows
  5000 t .. 5000 t + 4999 of the node features by the whole [5, 128] weight matrix and writes rows 5000 t .. 5000 t + 4999
  of the result. So whatever the two input arrays hold when the region is entered, the output array ends holding their
  product: entry (r, q) is the sum over k of a(r, k) * w(k, q), and the twenty row blocks tile the 100000 rows.
-/
import proofs.«141672_j25460566131065_1_alg».proof.Proof.Gen.KernelIdeal.Frame
import proofs.«141672_j25460566131065_1_alg».proof.Proof.EntryLaws
import proofs.«141672_j25460566131065_1_alg».proof.Proof.LibMatmulPlain
import Idealize.ShloMosaic.Lib.Pipeline.Value

set_option maxRecDepth 16384

noncomputable section

open scoped BigOperators

namespace Cert.KernelIdeal.Blocks0

open Cert.KernelIdeal Cert.KernelIdeal.Gen Cert.EntryLaws
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The body's stored value at (r, q): the sum over k of x(r, k) * w(k, q). -/
theorem pay_apply (x0 : Vec Ideal S5000x5 .f32) (x1 : Vec Ideal S5x128 .f32) (r : Fin 5000) (q : Fin 128) :
    k0_pay1 (F := Ideal) x0 x1 (ix2 r q) = ∑ k : Fin 5, x0 (ix2 r k) * x1 (ix2 k q) := by
  unfold k0_pay1
  exact Cert.LibMatmulPlain.matmul_zero_apply dot_S5000x5_S5x128_S5000x128_1_0_0_1_n_n rfl rfl rfl rfl rfl rfl none _ _ r q

/-- One entry of a block: if the block's row is the array's row and the weight block's column is the array's column,
    the stored value is the product's entry. -/
theorem pay_block (x0 : Vec Ideal S5000x5 .f32) (x1 : Vec Ideal S5x128 .f32)
    (a : S100000x5.Idx → EReal) (w : S5x128.Idx → EReal) (r : Fin 5000) (q : Fin 128) (i : S100000x128.Idx)
    (h0 : ∀ k : Fin 5, x0 (ix2 r k) = a (ix2 (i 0) k)) (h1 : ∀ k : Fin 5, x1 (ix2 k q) = w (ix2 k (i 1))) :
    k0_pay1 (F := Ideal) x0 x1 (ix2 r q) = prodAt (M := 100000) (K := 5) (N := 128) a w i := by
  rw [pay_apply]
  unfold prodAt
  exact Finset.sum_congr rfl fun k _ => by rw [h0 k, h1 k]

/-- The index maps over the grid: the row block moves with the point, the weight block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed_eq (c : Dev nD) (t : Fin cfg0.N) :
    (dat0 V c).flushed 2 t
      = ((cfg0.win 2).blk t).view.read (Elt Ideal) (prodAt (M := 100000) (K := 5) (N := 128) (V c main_arg0) (V c main_arg3)) := by
  show (cfg0.win 2).cut (grid0.coords t) ((dat0 V c).after 2 t) = _
  rw [after0_2]
  unfold out0_2
  rw [View.canon_unit_zero zero2]
  simp only [View.ld_unit_zero (S := S5000x5) zero2, View.ld_unit_zero (S := S5x128) zero2]
  obtain ⟨e0, e1, e2, e3, e4, e5⟩ := idx_facts t
  funext j
  refine (congrArg (k0_pay1 (F := Ideal) (iblk0 V c 0 t) (iblk0 V c 1 t)) (eq_ix2 (n0 := 5000) (n1 := 128) j)).trans ?_
  refine pay_block (iblk0 V c 0 t) (iblk0 V c 1 t) (V c main_arg0) (V c main_arg3) (j 0) (j 1)
    (((cfg0.win 2).blk t).view.emb j) (fun k => ?_) (fun k => ?_)
  · show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 5 + 1 * k.val = k.val
      omega
  · show V c main_arg3 (((cfg0.win 1).blk t).view.emb (ix2 k (j 1)))
      = V c main_arg3 (ix2 k ((((cfg0.win 2).blk t).view.emb j) 1))
    refine congrArg (V c main_arg3) (funext fun a => Fin.ext ?_)
    match a with
    | ⟨0, _⟩ =>
      show win0_1.index t (0 : Fin 2) * 5 + 1 * k.val = k.val
      omega
    | ⟨1, _⟩ =>
      show win0_1.index t (1 : Fin 2) * 128 + 1 * (j 1).val = win0_2.index t (1 : Fin 2) * 128 + 1 * (j 1).val
      omega

/-- An entry is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v33).slice (win0_2.rect t)).set ↔ _
  rw [View.set_slice_whole, Rect.mem_set_unit]
  exact Iff.rfl

/-- Row r lies in the block of point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < 20 := by omega
  refine ⟨⟨(i 0).val / 5000, ht⟩, flush0_2 _, ?_⟩
  rw [mem_blk]
  obtain ⟨-, -, -, -, e4, e5⟩ := idx_facts ⟨(i 0).val / 5000, ht⟩
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-- The output array after the region: the product of the two input arrays as the region found them. -/
theorem final (c : Dev nD) :
    (dat0 V c).arrAt 2 cfg0.N = prodAt (M := 100000) (K := 5) (N := 128) (V c main_arg0) (V c main_arg3) :=
  (dat0 V c).arrAt_eq_of_cover 2 _ (fun t _ => flushed_eq V c t) cover

end Cert.KernelIdeal.Blocks0

end
-- ==== Proof.Region1.lean ====
/-
  A bias step, from blocks to the whole array. The region walks twenty points; point t adds the bias row to every row of the block and clips below at zero,
  for rows 5000 t .. 5000 t + 4999, reading the whole [1, 128] bias row each time. So whatever the two input arrays hold
  when the region is entered, the output array ends holding, at (r, q), max (x(r, q) + b(0, q)) 0; the twenty row
  blocks tile the 100000 rows.
-/
import proofs.«141672_j25460566131065_1_alg».proof.Proof.Gen.KernelIdeal.Frame
import proofs.«141672_j25460566131065_1_alg».proof.Proof.EntryLaws
import Idealize.ShloMosaic.Lib.Pipeline.Value

set_option maxRecDepth 16384

noncomputable section

namespace Cert.KernelIdeal.Blocks1

open Cert.KernelIdeal Cert.KernelIdeal.Gen Cert.EntryLaws
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The body's stored value at (r, q). -/
theorem pay_apply (x0 : Vec Ideal S5000x128 .f32) (x1 : Vec Ideal S1x128 .f32) (r : Fin 5000) (q : Fin 128) :
    k1_pay1 (F := Ideal) x0 x1 (ix2 r q) = max (x0 (ix2 r q) + x1 (ix2 0 q)) 0 := by
  unfold k1_pay1
  exact shiftClip_body_apply (M := 5000) (N := 128) x0 x1 _ _ _ r q

/-- One entry of a block: if the block's entry is the array's entry and the bias block's column is the array's column,
    the stored value is the shifted, clipped entry. -/
theorem pay_block (x0 : Vec Ideal S5000x128 .f32) (x1 : Vec Ideal S1x128 .f32)
    (x : S100000x128.Idx → EReal) (b : S1x128.Idx → EReal) (r : Fin 5000) (q : Fin 128) (i : S100000x128.Idx)
    (h0 : x0 (ix2 r q) = x i) (h1 : x1 (ix2 0 q) = b (ix2 0 (i 1))) :
    k1_pay1 (F := Ideal) x0 x1 (ix2 r q) = rowShiftClip (M := 100000) (N := 128) x b i := by
  rw [pay_apply]
  unfold rowShiftClip
  rw [h0, h1]

/-- The index maps over the grid: the row block moves with the point, the bias block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the shifted, clipped array. -/
theorem flushed_eq (c : Dev nD) (t : Fin cfg1.N) :
    (dat1 V c).flushed 2 t
      = ((cfg1.win 2).blk t).view.read (Elt Ideal) (rowShiftClip (M := 100000) (N := 128) (V c main_v45) (V c main_v46)) := by
  show (cfg1.win 2).cut (grid1.coords t) ((dat1 V c).after 2 t) = _
  rw [after1_2]
  unfold out1_2
  rw [View.canon_unit_zero zero2]
  simp only [View.ld_unit_zero (S := S5000x128) zero2, View.ld_unit_zero (S := S1x128) zero2]
  obtain ⟨e0, e1, e2, e3, e4, e5⟩ := idx_facts t
  funext j
  refine (congrArg (k1_pay1 (F := Ideal) (iblk1 V c 0 t) (iblk1 V c 1 t)) (eq_ix2 (n0 := 5000) (n1 := 128) j)).trans ?_
  refine pay_block (iblk1 V c 0 t) (iblk1 V c 1 t) (V c main_v45) (V c main_v46) (j 0) (j 1)
    (((cfg1.win 2).blk t).view.emb j) ?_ ?_
  · show V c main_v45 (((cfg1.win 0).blk t).view.emb (ix2 (j 0) (j 1))) = V c main_v45 (((cfg1.win 2).blk t).view.emb j)
    refine congrArg (V c main_v45) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * (j 1).val = win1_2.index t (1 : Fin 2) * 128 + 1 * (j 1).val
      omega
  · show V c main_v46 (((cfg1.win 1).blk t).view.emb (ix2 0 (j 1)))
      = V c main_v46 (ix2 0 ((((cfg1.win 2).blk t).view.emb j) 1))
    refine congrArg (V c main_v46) (funext fun a => Fin.ext ?_)
    match a with
    | ⟨0, _⟩ =>
      show win1_1.index t (0 : Fin 2) * 1 + 1 * 0 = 0
      omega
    | ⟨1, _⟩ =>
      show win1_1.index t (1 : Fin 2) * 128 + 1 * (j 1).val = win1_2.index t (1 : Fin 2) * 128 + 1 * (j 1).val
      omega

/-- An entry is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- Row r lies in the block of point r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 5000 < 20 := by omega
  refine ⟨⟨(i 0).val / 5000, ht⟩, flush1_2 _, ?_⟩
  rw [mem_blk]
  obtain ⟨-, -, -, -, e4, e5⟩ := idx_facts ⟨(i 0).val / 5000, ht⟩
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e5]; omega

/-- The output array after the region. -/
theorem final (c : Dev nD) :
    (dat1 V c).arrAt 2 cfg1.N = rowShiftClip (M := 100000) (N := 128) (V c main_v45) (V c main_v46) :=
  (dat1 V c).arrAt_eq_of_cover 2 _ (fun t _ => flushed_eq V c t) cover

end Cert.KernelIdeal.Blocks1

end
-- ==== Proof.Region2.lean ====
/-
  A hidden-layer dense projection, from blocks to the whole array. The region walks twenty points; point t multiplies rows
  5000 t .. 5000 t + 4999 of the hidden features by the whole [128, 128] weight matrix and writes rows 5000 t .. 5000 t + 4999
  of the result. So whatever the two input arrays hold when the region is entered, the output array ends holding their
  product: entry (r, q) is the sum over k of a(r, k) * w(k, q), and the twenty row blocks tile the 100000 rows.
-/
import proofs.«141672_j25460566131065_1_alg».proof.Proof.Gen.KernelIdeal.Frame
import proofs.«141672_j25460566131065_1_alg».proof.Proof.EntryLaws
import proofs.«141672_j25460566131065_1_alg».proof.Proof.LibMatmulPlain
import Idealize.ShloMosaic.Lib.Pipeline.Value

set_option maxRecDepth 16384

noncomputable section

open scoped BigOperators

namespace Cert.KernelIdeal.Blocks2

open Cert.KernelIdeal Cert.KernelIdeal.Gen Cert.EntryLaws
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The body's stored value at (r, q): the sum over k of x(r, k) * w(k, q). -/
theorem pay_apply (x0 : Vec Ideal S5000x128 .f32) (x1 : Vec Ideal S128x128 .f32) (r : Fin 5000) (q : Fin 128) :
    k2_pay1 (F := Ideal) x0 x1 (ix2 r q) = ∑ k : Fin 128, x0 (ix2 r k) * x1 (ix2 k q) := by
  unfold k2_pay1
  show FloatOps.matmul (F := Ideal) dot_S5000x128_S128x128_S5000x128_1_0_0_1_n_n none
      (truncf (F := Ideal) .bf16 (shapeCast S5000x128 x0 shapeCasts_S5000x128_S5000x128) bitsLt_bf16_f32)
      (truncf (F := Ideal) .bf16 x1 bitsLt_bf16_f32) (constant (F := Ideal) S5000x128 .f32 0x00000000#32) (ix2 r q) = _
  rw [shapeCast_self]
  exact Cert.LibMatmulPlain.matmul_zero_apply dot_S5000x128_S128x128_S5000x128_1_0_0_1_n_n rfl rfl rfl rfl rfl rfl none _ _ r q

/-- One entry of a block: if the block's row is the array's row and the weight block's column is the array's column,
    the stored value is the product's entry. -/
theorem pay_block (x0 : Vec Ideal S5000x128 .f32) (x1 : Vec Ideal S128x128 .f32)
    (a : S100000x128.Idx → EReal) (w : S128x128.Idx → EReal) (r : Fin 5000) (q : Fin 128) (i : S100000x128.Idx)
    (h0 : ∀ k : Fin 128, x0 (ix2 r k) = a (ix2 (i 0) k)) (h1 : ∀ k : Fin 128, x1 (ix2 k q) = w (ix2 k (i 1))) :
    k2_pay1 (F := Ideal) x0 x1 (ix2 r q) = prodAt (M := 100000) (K := 128) (N := 128) a w i := by
  rw [pay_apply]
  unfold prodAt
  exact Finset.sum_congr rfl fun k _ => by rw [h0 k, h1 k]

/-- The index maps over the grid: the row block moves with the point, the weight block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays as the region finds them. -/
theorem flushed_eq (c : Dev nD) (t : Fin cfg2.N) :
    (dat2 V c).flushed 2 t
      = ((cfg2.win 2).blk t).view.read (Elt Ideal) (prodAt (M := 100000) (K := 128) (N := 128) (V c main_v47) (V c main_arg5)) := by
  show (cfg2.win 2).cut (grid2.coords t) ((dat2 V c).after 2 t) = _
  rw [after2_2]
  unfold out2_2
  rw [View.canon_unit_zero zero2]
  simp only [View.ld_unit_zero (S := S5000x128) zero2, View.ld_unit_zero (S := S128x128) zero2]
  obtain ⟨e0, e1, e2, e3, e4, e5⟩ := idx_facts t
  funext j
  refine (congrArg (k2_pay1 (F := Ideal) (iblk2 V c 0 t) (iblk2 V c 1 t)) (eq_ix2 (n0 := 5000) (n1 := 128) j)).trans ?_
  refine pay_block (iblk2 V c 0 t) (iblk2 V c 1 t) (V c main_v47) (V c main_arg5) (j 0) (j 1)
    (((cfg2.win 2).blk t).view.emb j) (fun k => ?_) (fun k => ?_)
  · show V c main_v47 (((cfg2.win 0).blk t).view.emb (ix2 (j 0) k))
      = V c main_v47 (ix2 ((((cfg2.win 2).blk t).view.emb j) 0) k)
    refine congrArg (V c main_v47) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  · show V c main_arg5 (((cfg2.win 1).blk t).view.emb (ix2 k (j 1)))
      = V c main_arg5 (ix2 k ((((cfg2.win 2).blk t).view.emb j) 1))
    refine congrArg (V c main_arg5) (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega

/-- An entry is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v48).slice (win2_2.rect t)).set ↔ _
  rw [View.set_slice_whole, Rect.mem_set_unit]
  exact Iff.rfl

/-- Row r lies in the block of point r / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 5000 < 20 := by omega
  refine ⟨⟨(i 0).val / 5000, ht⟩, flush2_2 _, ?_⟩
  rw [mem_blk]
  obtain ⟨-, -, -, -, e4, e5⟩ := idx_facts ⟨(i 0).val / 5000, ht⟩
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]; omega

/-- The output array after the region: the product of the two input arrays as the region found them. -/
theorem final (c : Dev nD) :
    (dat2 V c).arrAt 2 cfg2.N = prodAt (M := 100000) (K := 128) (N := 128) (V c main_v47) (V c main_arg5) :=
  (dat2 V c).arrAt_eq_of_cover 2 _ (fun t _ => flushed_eq V c t) cover

end Cert.KernelIdeal.Blocks2

end
-- ==== Proof.Region3.lean ====
/-
  A bias step, from blocks to the whole array. The region walks twenty points; point t adds the bias row to every row of the block and clips below at zero,
  for rows 5000 t .. 5000 t + 4999, reading the whole [1, 128] bias row each time. So whatever the two input arrays hold
  when the region is entered, the output array ends holding, at (r, q), max (x(r, q) + b(0, q)) 0; the twenty row
  blocks tile the 100000 rows.
-/
import proofs.«141672_j25460566131065_1_alg».proof.Proof.Gen.KernelIdeal.Frame
import proofs.«141672_j25460566131065_1_alg».proof.Proof.EntryLaws
import Idealize.ShloMosaic.Lib.Pipeline.Value

set_option maxRecDepth 16384

noncomputable section

namespace Cert.KernelIdeal.Blocks3

open Cert.KernelIdeal Cert.KernelIdeal.Gen Cert.EntryLaws
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The body's stored value at (r, q). -/
theorem pay_apply (x0 : Vec Ideal S5000x128 .f32) (x1 : Vec Ideal S1x128 .f32) (r : Fin 5000) (q : Fin 128) :
    k3_pay1 (F := Ideal) x0 x1 (ix2 r q) = max (x0 (ix2 r q) + x1 (ix2 0 q)) 0 := by
  unfold k3_pay1
  exact shiftClip_body_apply (M := 5000) (N := 128) x0 x1 _ _ _ r q

/-- One entry of a block: if the block's entry is the array's entry and the bias block's column is the array's column,
    the stored value is the shifted, clipped entry. -/
theorem pay_block (x0 : Vec Ideal S5000x128 .f32) (x1 : Vec Ideal S1x128 .f32)
    (x : S100000x128.Idx → EReal) (b : S1x128.Idx → EReal) (r : Fin 5000) (q : Fin 128) (i : S100000x128.Idx)
    (h0 : x0 (ix2 r q) = x i) (h1 : x1 (ix2 0 q) = b (ix2 0 (i 1))) :
    k3_pay1 (F := Ideal) x0 x1 (ix2 r q) = rowShiftClip (M := 100000) (N := 128) x b i := by
  rw [pay_apply]
  unfold rowShiftClip
  rw [h0, h1]

/-- The index maps over the grid: the row block moves with the point, the bias block stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the shifted, clipped array. -/
theorem flushed_eq (c : Dev nD) (t : Fin cfg3.N) :
    (dat3 V c).flushed 2 t
      = ((cfg3.win 2).blk t).view.read (Elt Ideal) (rowShiftClip (M := 100000) (N := 128) (V c main_v60) (V c main_v61)) := by
  show (cfg3.win 2).cut (grid3.coords t) ((dat3 V c).after 2 t) = _
  rw [after3_2]
  unfold out3_2
  rw [View.canon_unit_zero zero2]
  simp only [View.ld_unit_zero (S := S5000x128) zero2, View.ld_unit_zero (S := S1x128) zero2]
  obtain ⟨e0, e1, e2, e3, e4, e5⟩ := idx_facts t
  funext j
  refine (congrArg (k3_pay1 (F := Ideal) (iblk3 V c 0 t) (iblk3 V c 1 t)) (eq_ix2 (n0 := 5000) (n1 := 128) j)).trans ?_
  refine pay_block (iblk3 V c 0 t) (iblk3 V c 1 t) (V c main_v60) (V c main_v61) (j 0) (j 1)
    (((cfg3.win 2).blk t).view.emb j) ?_ ?_
  · show V c main_v60 (((cfg3.win 0).blk t).view.emb (ix2 (j 0) (j 1))) = V c main_v60 (((cfg3.win 2).blk t).view.emb j)
    refine congrArg (V c main_v60) (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 128 + 1 * (j 1).val = win3_2.index t (1 : Fin 2) * 128 + 1 * (j 1).val
      omega
  · show V c main_v61 (((cfg3.win 1).blk t).view.emb (ix2 0 (j 1)))
      = V c main_v61 (ix2 0 ((((cfg3.win 2).blk t).view.emb j) 1))
    refine congrArg (V c main_v61) (funext fun a => Fin.ext ?_)
    match a with
    | ⟨0, _⟩ =>
      show win3_1.index t (0 : Fin 2) * 1 + 1 * 0 = 0
      omega
    | ⟨1, _⟩ =>
      show win3_1.index t (1 : Fin 2) * 128 + 1 * (j 1).val = win3_2.index t (1 : Fin 2) * 128 + 1 * (j 1).val
      omega

/-- An entry is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v62).slice (win3_2.rect t)).set ↔ _
  rw [View.set_slice_whole, Rect.mem_set_unit]
  exact Iff.rfl

/-- Row r lies in the block of point r / 5000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have ht : (i 0).val / 5000 < 20 := by omega
  refine ⟨⟨(i 0).val / 5000, ht⟩, flush3_2 _, ?_⟩
  rw [mem_blk]
  obtain ⟨-, -, -, -, e4, e5⟩ := idx_facts ⟨(i 0).val / 5000, ht⟩
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    rw [e5]; omega

/-- The output array after the region. -/
theorem final (c : Dev nD) :
    (dat3 V c).arrAt 2 cfg3.N = rowShiftClip (M := 100000) (N := 128) (V c main_v60) (V c main_v61) :=
  (dat3 V c).arrAt_eq_of_cover 2 _ (fun t _ => flushed_eq V c t) cover

end Cert.KernelIdeal.Blocks3

end
-- ==== Proof.Region4.lean ====
/-
  A hidden-layer dense projection, from blocks to the whole array. The region walks twenty points; point t multiplies rows
  5000 t .. 5000 t + 4999 of the hidden features by the whole [128, 128] weight matrix and writes rows 5000 t .. 5000 t + 4999
  of the result. So whatever the two input arrays hold when the region is entered, the output array ends holding their
  product: entry (r, q) is the sum over k of a(r, k) * w(k, q), and the twenty row blocks tile the 100000 rows.
-/
import proofs.«141672_j25460566131065_1_alg».proof.Proof.Gen.KernelIdeal.Frame
import proofs.«141672_j25460566131065_1_alg».proof.Proof.EntryLaws
import proofs.«141672_j25460566131065_1_alg».proof.Proof.LibMatmulPlain
import Idealize.ShloMosaic.Lib.Pipeline.Value

set_option maxRecDepth 16384

noncomputable section

open scoped BigOperators

namespace Cert.KernelIdeal.Blocks4

open Cert.KernelIdeal Cert.KernelIdeal.Gen Cert.EntryLaws
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The body's stored value at (r, q): the sum over k of x(r, k) * w(k, q). -/
theorem pay_apply (x0 : Vec Ideal S5000x128 .f32) (x1 : Vec Ideal S128x128 .f32) (r : Fin 5000) (q : Fin 128) :
    k4_pay1 (F := Ideal) x0 x1 (ix2 r q) = ∑ k : Fin 128, x0 (ix2 r k) * x1 (ix2 k q) := by
  unfold k4_pay1
  show FloatOps.matmul (F := Ideal) dot_S5000x128_S128x128_S5000x128_1_0_0_1_n_n none
      (truncf (F := Ideal) .bf16 (shapeCast S5000x128 x0 shapeCasts_S5000x128_S5000x128) bitsLt_bf16_f32)
      (truncf (F := Ideal) .bf16 x1 bitsLt_bf16_f32) (constant (F := Ideal) S5000x128 .f32 0x00000000#32) (ix2 r q) = _
  rw [shapeCast_self]
  exact Cert.LibMatmulPlain.matmul_zero_apply dot_S5000x128_S128x128_S5000x128_1_0_0_1_n_n rfl rfl rfl rfl rfl rfl none _ _ r q

/-- One entry of a block: if the block's row is the array's row and the weight block's column is the array's column,
    the stored value is the product's entry. -/
theorem pay_block (x0 : Vec Ideal S5000x128 .f32) (x1 : Vec Ideal S128x128 .f32)
    (a : S100000x128.Idx → EReal) (w : S128x128.Idx → EReal) (r : Fin 5000) (q : Fin 128) (i : S100000x128.Idx)
    (h0 : ∀ k : Fin 128, x0 (ix2 r k) = a (ix2 (i 0) k)) (h1 : ∀ k : Fin 128, x1 (ix2 k q) = w (ix2 k (i 1))) :
    k4_pay1 (F := Ideal) x0 x1 (ix2 r q) = prodAt (M := 100000) (K := 128) (N := 128) a w i := by
  rw [pay_apply]
  unfold prodAt
  exact Finset.sum_congr rfl fun k _ => by rw [h0 k, h1 k]

/-- The index maps over the grid: the row block moves with the point, the weight block stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the two arrays as the region finds them. -/
theorem flushed_eq (c : Dev nD) (t : Fin cfg4.N) :
    (dat4 V c).flushed 2 t
      = ((cfg4.win 2).blk t).view.read (Elt Ideal) (prodAt (M := 100000) (K := 128) (N := 128) (V c main_v62) (V c main_arg7)) := by
  show (cfg4.win 2).cut (grid4.coords t) ((dat4 V c).after 2 t) = _
  rw [after4_2]
  unfold out4_2
  rw [View.canon_unit_zero zero2]
  simp only [View.ld_unit_zero (S := S5000x128) zero2, View.ld_unit_zero (S := S128x128) zero2]
  obtain ⟨e0, e1, e2, e3, e4, e5⟩ := idx_facts t
  funext j
  refine (congrArg (k4_pay1 (F := Ideal) (iblk4 V c 0 t) (iblk4 V c 1 t)) (eq_ix2 (n0 := 5000) (n1 := 128) j)).trans ?_
  refine pay_block (iblk4 V c 0 t) (iblk4 V c 1 t) (V c main_v62) (V c main_arg7) (j 0) (j 1)
    (((cfg4.win 2).blk t).view.emb j) (fun k => ?_) (fun k => ?_)
  · show V c main_v62 (((cfg4.win 0).blk t).view.emb (ix2 (j 0) k))
      = V c main_v62 (ix2 ((((cfg4.win 2).blk t).view.emb j) 0) k)
    refine congrArg (V c main_v62) (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 128 + 1 * k.val = k.val
      omega
  · show V c main_arg7 (((cfg4.win 1).blk t).view.emb (ix2 k (j 1)))
      = V c main_arg7 (ix2 k ((((cfg4.win 2).blk t).view.emb j) 1))
    refine congrArg (V c main_arg7) (funext fun a => Fin.ext ?_)
    match a with
    | ⟨0, _⟩ =>
      show win4_1.index t (0 : Fin 2) * 128 + 1 * k.val = k.val
      omega
    | ⟨1, _⟩ =>
      show win4_1.index t (1 : Fin 2) * 128 + 1 * (j 1).val = win4_2.index t (1 : Fin 2) * 128 + 1 * (j 1).val
      omega

/-- An entry is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v63).slice (win4_2.rect t)).set ↔ _
  rw [View.set_slice_whole, Rect.mem_set_unit]
  exact Iff.rfl

/-- Row r lies in the block of point r / 5000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have ht : (i 0).val / 5000 < 20 := by omega
  refine ⟨⟨(i 0).val / 5000, ht⟩, flush4_2 _, ?_⟩
  rw [mem_blk]
  obtain ⟨-, -, -, -, e4, e5⟩ := idx_facts ⟨(i 0).val / 5000, ht⟩
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val
      ∧ (i 1).val < win4_2.index ⟨(i 0).val / 5000, ht⟩ (1 : Fin 2) * 128 + 128
    rw [e5]; omega

/-- The output array after the region: the product of the two input arrays as the region found them. -/
theorem final (c : Dev nD) :
    (dat4 V c).arrAt 2 cfg4.N = prodAt (M := 100000) (K := 128) (N := 128) (V c main_v62) (V c main_arg7) :=
  (dat4 V c).arrAt_eq_of_cover 2 _ (fun t _ => flushed_eq V c t) cover

end Cert.KernelIdeal.Blocks4

end
-- ==== Proof.Region5.lean ====
/-
  A bias step, from blocks to the whole array. The region walks twenty points; point t adds the bias row to every row of the block,
  for rows 5000 t .. 5000 t + 4999, reading the whole [1, 128] bias row each time. So whatever the two input arrays hold
  when the region is entered, the output array ends holding, at (r, q), x(r, q) + b(0, q); the twenty row
  blocks tile the 100000 rows.
-/
import proofs.«141672_j25460566131065_1_alg».proof.Proof.Gen.KernelIdeal.Frame
import proofs.«141672_j25460566131065_1_alg».proof.Proof.EntryLaws
import Idealize.ShloMosaic.Lib.Pipeline.Value

set_option maxRecDepth 16384

noncomputable section

namespace Cert.KernelIdeal.Blocks5

open Cert.KernelIdeal Cert.KernelIdeal.Gen Cert.EntryLaws
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The body's stored value at (r, q). -/
theorem pay_apply (x0 : Vec Ideal S5000x128 .f32) (x1 : Vec Ideal S1x128 .f32) (r : Fin 5000) (q : Fin 128) :
    k5_pay1 (F := Ideal) x0 x1 (ix2 r q) = x0 (ix2 r q) + x1 (ix2 0 q) := by
  unfold k5_pay1
  exact shift_body_apply (M := 5000) (N := 128) x0 x1 _ _ _ r q

/-- One entry of a block: if the block's entry is the array's entry and the bias block's column is the array's column,
    the stored value is the shifted entry. -/
theorem pay_block (x0 : Vec Ideal S5000x128 .f32) (x1 : Vec Ideal S1x128 .f32)
    (x : S100000x128.Idx → EReal) (b : S1x128.Idx → EReal) (r : Fin 5000) (q : Fin 128) (i : S100000x128.Idx)
    (h0 : x0 (ix2 r q) = x i) (h1 : x1 (ix2 0 q) = b (ix2 0 (i 1))) :
    k5_pay1 (F := Ideal) x0 x1 (ix2 r q) = rowShift (M := 100000) (N := 128) x b i := by
  rw [pay_apply]
  unfold rowShift
  rw [h0, h1]

/-- The index maps over the grid: the row block moves with the point, the bias block stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the shifted array. -/
theorem flushed_eq (c : Dev nD) (t : Fin cfg5.N) :
    (dat5 V c).flushed 2 t
      = ((cfg5.win 2).blk t).view.read (Elt Ideal) (rowShift (M := 100000) (N := 128) (V c main_v75) (V c main_v76)) := by
  show (cfg5.win 2).cut (grid5.coords t) ((dat5 V c).after 2 t) = _
  rw [after5_2]
  unfold out5_2
  rw [View.canon_unit_zero zero2]
  simp only [View.ld_unit_zero (S := S5000x128) zero2, View.ld_unit_zero (S := S1x128) zero2]
  obtain ⟨e0, e1, e2, e3, e4, e5⟩ := idx_facts t
  funext j
  refine (congrArg (k5_pay1 (F := Ideal) (iblk5 V c 0 t) (iblk5 V c 1 t)) (eq_ix2 (n0 := 5000) (n1 := 128) j)).trans ?_
  refine pay_block (iblk5 V c 0 t) (iblk5 V c 1 t) (V c main_v75) (V c main_v76) (j 0) (j 1)
    (((cfg5.win 2).blk t).view.emb j) ?_ ?_
  · show V c main_v75 (((cfg5.win 0).blk t).view.emb (ix2 (j 0) (j 1))) = V c main_v75 (((cfg5.win 2).blk t).view.emb j)
    refine congrArg (V c main_v75) (funext fun a => Fin.ext ?_)
    match a with
    | ⟨0, _⟩ =>
      show win5_0.index t (0 : Fin 2) * 5000 + 1 * (j 0).val = win5_2.index t (0 : Fin 2) * 5000 + 1 * (j 0).val
      omega
    | ⟨1, _⟩ =>
      show win5_0.index t (1 : Fin 2) * 128 + 1 * (j 1).val = win5_2.index t (1 : Fin 2) * 128 + 1 * (j 1).val
      omega
  · show V c main_v76 (((cfg5.win 1).blk t).view.emb (ix2 0 (j 1)))
      = V c main_v76 (ix2 0 ((((cfg5.win 2).blk t).view.emb j) 1))
    refine congrArg (V c main_v76) (funext fun a => Fin.ext ?_)
    match a with
    | ⟨0, _⟩ =>
      show win5_1.index t (0 : Fin 2) * 1 + 1 * 0 = 0
      omega
    | ⟨1, _⟩ =>
      show win5_1.index t (1 : Fin 2) * 128 + 1 * (j 1).val = win5_2.index t (1 : Fin 2) * 128 + 1 * (j 1).val
      omega

/-- An entry is in point t's block iff each coordinate is in the block's range on its axis. -/
theorem mem_blk (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v77).slice (win5_2.rect t)).set ↔ _
  rw [View.set_slice_whole, Rect.mem_set_unit]
  exact Iff.rfl

/-- Row r lies in the block of point r / 5000. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have ht : (i 0).val / 5000 < 20 := by omega
  refine ⟨⟨(i 0).val / 5000, ht⟩, flush5_2 _, ?_⟩
  rw [mem_blk]
  obtain ⟨-, -, -, -, e4, e5⟩ := idx_facts ⟨(i 0).val / 5000, ht⟩
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 128 ≤ (i 1).val
      ∧ (i 1).val < win5_2.index ⟨(i 0).val / 5000, ht⟩ (1 : Fin 2) * 128 + 128
    rw [e5]; omega

/-- The output array after the region. -/
theorem final (c : Dev nD) :
    (dat5 V c).arrAt 2 cfg5.N = rowShift (M := 100000) (N := 128) (V c main_v75) (V c main_v76) :=
  (dat5 V c).arrAt_eq_of_cover 2 _ (fun t _ => flushed_eq V c t) cover

end Cert.KernelIdeal.Blocks5

end
-- ==== Proof.Region6.lean ====
/-
  The head, from its one block to the whole array. The region has a single point whose four blocks are the whole arrays:
  the pooled features [256, 128], the weight column [128, 1], the scalar bias [1, 1] and the result [256, 1]. Whatever the
  three input arrays hold when the region is entered, the result ends holding, at (r, 0), the logistic function of the sum
  over k of g(r, k) * w(k, 0), plus b(0, 0).
-/
import proofs.«141672_j25460566131065_1_alg».proof.Proof.Gen.KernelIdeal.Frame
import proofs.«141672_j25460566131065_1_alg».proof.Proof.EntryLaws
import proofs.«141672_j25460566131065_1_alg».proof.Proof.LibMatmulPlain
import Idealize.ShloMosaic.Lib.Pipeline.Value

set_option maxRecDepth 16384

noncomputable section

open scoped BigOperators

namespace Cert.KernelIdeal.Blocks6

open Cert.KernelIdeal Cert.KernelIdeal.Gen Cert.EntryLaws
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The body's stored value at (r, 0). -/
theorem pay_apply (x0 : Vec Ideal S256x128 .f32) (x1 : Vec Ideal S128x1 .f32) (x2 : Vec Ideal S1x1 .f32) (r : Fin 256) (q : Fin 1) :
    k6_pay1 (F := Ideal) x0 x1 x2 (ix2 r q)
      = Ideal.logistic ((∑ k : Fin 128, x0 (ix2 r k) * x1 (ix2 k q)) + x2 (ix2 0 q)) := by
  unfold k6_pay1
  show Ideal.logistic (FloatOps.matmul (F := Ideal) dot_S256x128_S128x1_S256x1_1_0_0_1_n_n none
      (truncf (F := Ideal) .bf16 (shapeCast S256x128 x0 shapeCasts_S256x128_S256x128) bitsLt_bf16_f32)
      (truncf (F := Ideal) .bf16 x1 bitsLt_bf16_f32)
      (constant (F := Ideal) S256x1 .f32 0x00000000#32) (ix2 r q)
    + broadcastTo S256x1 (shapeCast S1x1 x2 shapeCasts_S1x1_S1x1) broadcasts_S1x1_S256x1 (ix2 r q)) = _
  rw [shapeCast_self, shapeCast_self,
    Cert.LibMatmulPlain.matmul_zero_apply dot_S256x128_S128x1_S256x1_1_0_0_1_n_n rfl rfl rfl rfl rfl rfl none _ _ r q,
    spreadRow_apply (M := 256) (N := 1) x2 broadcasts_S1x1_S256x1 r q]
  rfl

/-- One entry: if the blocks' entries are the arrays' entries, the stored value is the head's entry. -/
theorem pay_block (x0 : Vec Ideal S256x128 .f32) (x1 : Vec Ideal S128x1 .f32) (x2 : Vec Ideal S1x1 .f32)
    (g : S256x128.Idx → EReal) (w : S128x1.Idx → EReal) (b : S1x1.Idx → EReal) (r : Fin 256) (q : Fin 1) (i : S256x1.Idx)
    (h0 : ∀ k : Fin 128, x0 (ix2 r k) = g (ix2 (i 0) k)) (h1 : ∀ k : Fin 128, x1 (ix2 k q) = w (ix2 k 0))
    (h2 : x2 (ix2 0 q) = b (ix2 0 0)) :
    k6_pay1 (F := Ideal) x0 x1 x2 (ix2 r q) = headAt (M := 256) (K := 128) g w b i := by
  rw [pay_apply]
  unfold headAt
  rw [h2]
  exact congrArg (fun s => Ideal.logistic (s + b (ix2 0 0))) (Finset.sum_congr rfl fun k _ => by rw [h0 k, h1 k])

/-- The index maps at the one point: every block sits at the origin. -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- What the one point writes back is the head of the three arrays as the region finds them. -/
theorem flushed_eq (c : Dev nD) (t : Fin cfg6.N) :
    (dat6 V c).flushed 3 t
      = ((cfg6.win 3).blk t).view.read (Elt Ideal)
          (headAt (M := 256) (K := 128) (V c main_v89) (V c main_arg9) (V c main_v90)) := by
  show (cfg6.win 3).cut (grid6.coords t) ((dat6 V c).after 3 t) = _
  rw [after6_3]
  unfold out6_3
  rw [View.canon_unit_zero zero2]
  simp only [View.ld_unit_zero (S := S256x128) zero2, View.ld_unit_zero (S := S128x1) zero2, View.ld_unit_zero (S := S1x1) zero2]
  obtain ⟨e0, e1, e2, e3, e4, e5, e6, e7⟩ := idx_facts t
  funext j
  refine (congrArg (k6_pay1 (F := Ideal) (iblk6 V c 0 t) (iblk6 V c 1 t) (iblk6 V c 2 t)) (eq_ix2 (n0 := 256) (n1 := 1) j)).trans ?_
  refine pay_block (iblk6 V c 0 t) (iblk6 V c 1 t) (iblk6 V c 2 t) (V c main_v89) (V c main_arg9) (V c main_v90) (j 0) (j 1)
    (((cfg6.win 3).blk t).view.emb j) (fun k => ?_) (fun k => ?_) ?_
  · show V c main_v89 (((cfg6.win 0).blk t).view.emb (ix2 (j 0) k))
      = V c main_v89 (ix2 ((((cfg6.win 3).blk t).view.emb j) 0) k)
    refine congrArg (V c main_v89) (funext fun a => Fin.ext ?_)
    match a with
    | ⟨0, _⟩ =>
      show win6_0.index t (0 : Fin 2) * 256 + 1 * (j 0).val = win6_3.index t (0 : Fin 2) * 256 + 1 * (j 0).val
      omega
    | ⟨1, _⟩ =>
      show win6_0.index t (1 : Fin 2) * 128 + 1 * k.val = k.val
      omega
  · show V c main_arg9 (((cfg6.win 1).blk t).view.emb (ix2 k (j 1))) = V c main_arg9 (ix2 k 0)
    refine congrArg (V c main_arg9) (funext fun a => Fin.ext ?_)
    have hj : (j 1).val < 1 := (j 1).isLt
    match a with
    | ⟨0, _⟩ =>
      show win6_1.index t (0 : Fin 2) * 128 + 1 * k.val = k.val
      omega
    | ⟨1, _⟩ =>
      show win6_1.index t (1 : Fin 2) * 1 + 1 * (j 1).val = 0
      omega
  · show V c main_v90 (((cfg6.win 2).blk t).view.emb (ix2 0 (j 1))) = V c main_v90 (ix2 0 0)
    refine congrArg (V c main_v90) (funext fun a => Fin.ext ?_)
    have hj : (j 1).val < 1 := (j 1).isLt
    match a with
    | ⟨0, _⟩ =>
      show win6_2.index t (0 : Fin 2) * 1 + 1 * 0 = 0
      omega
    | ⟨1, _⟩ =>
      show win6_2.index t (1 : Fin 2) * 1 + 1 * (j 1).val = 0
      omega

/-- An entry is in the one block iff each coordinate is in the block's range on its axis. -/
theorem mem_blk (t : Fin cfg6.N) (i : S256x1.Idx) :
    i ∈ ((cfg6.win 3).blk t).view.set ↔ ∀ a : Fin 2, win6_3.index t a * S256x1.size a ≤ (i a).val
      ∧ (i a).val < win6_3.index t a * S256x1.size a + S256x1.size a := by
  show i ∈ ((View.whole main_v91).slice (win6_3.rect t)).set ↔ _
  rw [View.set_slice_whole, Rect.mem_set_unit]
  exact Iff.rfl

/-- The one block is the whole array. -/
theorem cover (i : S256x1.Idx) :
    ∃ t : Fin cfg6.N, (cfg6.win 3).flush t = true ∧ i ∈ ((cfg6.win 3).blk t).view.set := by
  have hi0 : (i 0).val < 256 := (i 0).isLt
  have hi1 : (i 1).val < 1 := (i 1).isLt
  refine ⟨⟨0, by decide⟩, flush6_3 _, ?_⟩
  rw [mem_blk]
  obtain ⟨-, -, -, -, -, -, e6, e7⟩ := idx_facts ⟨0, by decide⟩
  intro a
  match a with
  | ⟨0, _⟩ =>
    show win6_3.index ⟨0, by decide⟩ (0 : Fin 2) * 256 ≤ (i 0).val ∧ (i 0).val < win6_3.index ⟨0, by decide⟩ (0 : Fin 2) * 256 + 256
    rw [e6]; omega
  | ⟨1, _⟩ =>
    show win6_3.index ⟨0, by decide⟩ (1 : Fin 2) * 1 ≤ (i 1).val ∧ (i 1).val < win6_3.index ⟨0, by decide⟩ (1 : Fin 2) * 1 + 1
    rw [e7]; omega

/-- The result array after the region. -/
theorem final (c : Dev nD) :
    (dat6 V c).arrAt 3 cfg6.N = headAt (M := 256) (K := 128) (V c main_v89) (V c main_arg9) (V c main_v90) :=
  (dat6 V c).arrAt_eq_of_cover 3 _ (fun t _ => flushed_eq V c t) cover

end Cert.KernelIdeal.Blocks6

end
-- ==== Proof.Fold.lean ====
/-
  The kernel program's memory, boundary by boundary. Between the launch and the return the program crosses fourteen
  boundaries: seven stretches of host operations and seven pipelined regions. At each boundary, every buffer that is still
  read later is written here as a function of the eleven launch arguments — and that function is the reference program's
  own value for the matching stage (the reference computes the same graph normalisation, gathers, scatters and pooling
  with the same host operations; where the kernel runs a region the reference has a dot_general, a bias add with or without
  a maximum with zero, or the head).
  A stretch of host operations is read off operation by operation; a buffer it does not write keeps its contents. A region
  replaces its output array by what its blocks tile (the projections, bias steps and head of the region modules), leaves its
  inputs alone, and bypasses every other buffer.
-/
import proofs.«141672_j25460566131065_1_alg».proof.Proof.Gen.KernelIdeal.Frame
import proofs.«141672_j25460566131065_1_alg».proof.Proof.RefReadPatched
import proofs.«141672_j25460566131065_1_alg».proof.Proof.Bridge
import proofs.«141672_j25460566131065_1_alg».proof.Proof.Region0
import proofs.«141672_j25460566131065_1_alg».proof.Proof.Region1
import proofs.«141672_j25460566131065_1_alg».proof.Proof.Region2
import proofs.«141672_j25460566131065_1_alg».proof.Proof.Region3
import proofs.«141672_j25460566131065_1_alg».proof.Proof.Region4
import proofs.«141672_j25460566131065_1_alg».proof.Proof.Region5
import proofs.«141672_j25460566131065_1_alg».proof.Proof.Region6

set_option maxRecDepth 16384

noncomputable section

namespace Cert.KernelIdeal.Fold

open Cert.KernelIdeal Cert.KernelIdeal.Gen Cert.EntryLaws
open Idealize.ShloMosaic Idealize.ShloMosaic.TcCoe Idealize.SL.Sem Idealize.ShloMosaic.StableHlo

/-! ## The stretches of host operations, over any contents -/

section Stretches

variable (W : Valuation τ sig (Elt Ideal))

theorem s0_v3 : StableHlo.after hostOps0 W (Proc.devRef .tc main_v3) = Cert.ReferenceIdeal.ReadP.val_main_v3 (F := Ideal) (W (Proc.devRef .tc main_arg1)) := by
  after_results
  rfl
theorem s0_v6 : StableHlo.after hostOps0 W (Proc.devRef .tc main_v6) = Cert.ReferenceIdeal.ReadP.val_main_v6 (F := Ideal) (W (Proc.devRef .tc main_arg1)) := by
  after_results
  rfl
theorem s0_v12 : StableHlo.after hostOps0 W (Proc.devRef .tc main_v12) = Cert.ReferenceIdeal.ReadP.val_main_v12 (F := Ideal) (W (Proc.devRef .tc main_arg1)) := by
  after_results
  rfl
theorem s0_v15 : StableHlo.after hostOps0 W (Proc.devRef .tc main_v15) = Cert.ReferenceIdeal.ReadP.val_main_v15 (F := Ideal) (W (Proc.devRef .tc main_arg1)) := by
  after_results
  rfl
theorem s0_cst_3 : StableHlo.after hostOps0 W (Proc.devRef .tc main_cst_3) = Cert.ReferenceIdeal.ReadP.val_main_cst_3 (F := Ideal) := by
  after_results
  rfl

/-- The inlined select of the normalisation: over any three inputs. -/
theorem s01_v16 (p12 : (⟨S100000, .i1⟩ : BufTy).Contents (Elt Ideal)) (p15 : (⟨S100000, .f32⟩ : BufTy).Contents (Elt Ideal))
    (pc : (⟨S_, .f32⟩ : BufTy).Contents (Elt Ideal))
    (h12 : W (Proc.devRef .tc main_v12) = p12) (h15 : W (Proc.devRef .tc main_v15) = p15) (hc : W (Proc.devRef .tc main_cst_3) = pc) :
    StableHlo.after hostOps0_1 W (Proc.devRef .tc main_v16)
      = select p12 p15 (broadcastInDim S100000 ![] bcast_S_S100000 (id pc)) := by
  after_results
  rw [h12, h15, hc]
  rfl

theorem v16_ref (x1) : select (Cert.ReferenceIdeal.ReadP.val_main_v12 (F := Ideal) x1) (Cert.ReferenceIdeal.ReadP.val_main_v15 (F := Ideal) x1) (broadcastInDim S100000 ![] bcast_S_S100000 (id (Cert.ReferenceIdeal.ReadP.val_main_cst_3 (F := Ideal))))
    = Cert.ReferenceIdeal.ReadP.val_main_v16 (F := Ideal) x1 := by
  unfold Cert.ReferenceIdeal.ReadP.val_main_v16 Cert.ReferenceIdeal.ReadP.val_main_call0_v1 Cert.ReferenceIdeal.ReadP.val_main_call0_v0
  rfl

set_option maxHeartbeats 4000000 in
theorem s02_v32 (x1)
    (h0 : W (Proc.devRef .tc main_v3) = Cert.ReferenceIdeal.ReadP.val_main_v3 (F := Ideal) x1)
    (h1 : W (Proc.devRef .tc main_v6) = Cert.ReferenceIdeal.ReadP.val_main_v6 (F := Ideal) x1)
    (h2 : W (Proc.devRef .tc main_v16) = Cert.ReferenceIdeal.ReadP.val_main_v16 (F := Ideal) x1) :
    StableHlo.after hostOps0_2 W (Proc.devRef .tc main_v32) = Cert.ReferenceIdeal.ReadP.val_main_v32 (F := Ideal) x1 := by
  after_results_simp
  rw [h0, h1, h2]
  rfl

set_option maxHeartbeats 4000000 in
theorem s1_v45 (x0) (x1) (x3)
    (h0 : W (Proc.devRef .tc main_v33) = Cert.ReferenceIdeal.ReadP.val_main_v33 (F := Ideal) x0 x3)
    (h1 : W (Proc.devRef .tc main_v3) = Cert.ReferenceIdeal.ReadP.val_main_v3 (F := Ideal) x1)
    (h2 : W (Proc.devRef .tc main_v6) = Cert.ReferenceIdeal.ReadP.val_main_v6 (F := Ideal) x1)
    (h3 : W (Proc.devRef .tc main_v32) = Cert.ReferenceIdeal.ReadP.val_main_v32 (F := Ideal) x1) :
    StableHlo.after hostOps1 W (Proc.devRef .tc main_v45) = Cert.ReferenceIdeal.ReadP.val_main_v45 (F := Ideal) x0 x1 x3 := by
  after_results_simp
  rw [h0, h1, h2, h3]
  rfl
theorem s1_v46 : StableHlo.after hostOps1 W (Proc.devRef .tc main_v46) = shapeCast S1x128 (W (Proc.devRef .tc main_arg4)) shapeCasts_S128_S1x128 := by
  after_results
  rfl

set_option maxHeartbeats 4000000 in
theorem s3_v60 (x0) (x1) (x3) (x4) (x5)
    (h0 : W (Proc.devRef .tc main_v48) = Cert.ReferenceIdeal.ReadP.val_main_v50 (F := Ideal) x0 x1 x3 x4 x5)
    (h1 : W (Proc.devRef .tc main_v3) = Cert.ReferenceIdeal.ReadP.val_main_v3 (F := Ideal) x1)
    (h2 : W (Proc.devRef .tc main_v6) = Cert.ReferenceIdeal.ReadP.val_main_v6 (F := Ideal) x1)
    (h3 : W (Proc.devRef .tc main_v32) = Cert.ReferenceIdeal.ReadP.val_main_v32 (F := Ideal) x1) :
    StableHlo.after hostOps3 W (Proc.devRef .tc main_v60) = Cert.ReferenceIdeal.ReadP.val_main_v62 (F := Ideal) x0 x1 x3 x4 x5 := by
  after_results_simp
  rw [h0, h1, h2, h3]
  rfl
theorem s3_v61 : StableHlo.after hostOps3 W (Proc.devRef .tc main_v61) = shapeCast S1x128 (W (Proc.devRef .tc main_arg6)) shapeCasts_S128_S1x128 := by
  after_results
  rfl

set_option maxHeartbeats 4000000 in
theorem s5_v75 (x0) (x1) (x3) (x4) (x5) (x6) (x7)
    (h0 : W (Proc.devRef .tc main_v63) = Cert.ReferenceIdeal.ReadP.val_main_v67 (F := Ideal) x0 x1 x3 x4 x5 x6 x7)
    (h1 : W (Proc.devRef .tc main_v3) = Cert.ReferenceIdeal.ReadP.val_main_v3 (F := Ideal) x1)
    (h2 : W (Proc.devRef .tc main_v6) = Cert.ReferenceIdeal.ReadP.val_main_v6 (F := Ideal) x1)
    (h3 : W (Proc.devRef .tc main_v32) = Cert.ReferenceIdeal.ReadP.val_main_v32 (F := Ideal) x1) :
    StableHlo.after hostOps5 W (Proc.devRef .tc main_v75) = Cert.ReferenceIdeal.ReadP.val_main_v79 (F := Ideal) x0 x1 x3 x4 x5 x6 x7 := by
  after_results_simp
  rw [h0, h1, h2, h3]
  rfl
theorem s5_v76 : StableHlo.after hostOps5 W (Proc.devRef .tc main_v76) = shapeCast S1x128 (W (Proc.devRef .tc main_arg8)) shapeCasts_S128_S1x128 := by
  after_results
  rfl

set_option maxHeartbeats 4000000 in
theorem s6_v89 (x0) (x1) (x2) (x3) (x4) (x5) (x6) (x7) (x8)
    (h0 : W (Proc.devRef .tc main_v77) = Cert.ReferenceIdeal.ReadP.val_main_v82 (F := Ideal) x0 x1 x3 x4 x5 x6 x7 x8)
    (h1 : W (Proc.devRef .tc main_arg2) = x2) :
    StableHlo.after hostOps6 W (Proc.devRef .tc main_v89) = Cert.ReferenceIdeal.ReadP.val_main_v94 (F := Ideal) x0 x1 x2 x3 x4 x5 x6 x7 x8 := by
  after_results_simp
  rw [h0, h1]
  rfl
theorem s6_v90 : StableHlo.after hostOps6 W (Proc.devRef .tc main_v90) = shapeCast S1x1 (W (Proc.devRef .tc main_arg10)) shapeCasts_S1_S1x1 := by
  after_results
  rfl

/-! ### What a stretch does not write keeps its contents -/

theorem pass_hostOps0_arg0 : StableHlo.after hostOps0 W (Proc.devRef .tc main_arg0) = W (Proc.devRef .tc main_arg0) := by after_results
theorem pass_hostOps0_arg2 : StableHlo.after hostOps0 W (Proc.devRef .tc main_arg2) = W (Proc.devRef .tc main_arg2) := by after_results
theorem pass_hostOps0_arg3 : StableHlo.after hostOps0 W (Proc.devRef .tc main_arg3) = W (Proc.devRef .tc main_arg3) := by after_results
theorem pass_hostOps0_arg4 : StableHlo.after hostOps0 W (Proc.devRef .tc main_arg4) = W (Proc.devRef .tc main_arg4) := by after_results
theorem pass_hostOps0_arg5 : StableHlo.after hostOps0 W (Proc.devRef .tc main_arg5) = W (Proc.devRef .tc main_arg5) := by after_results
theorem pass_hostOps0_arg6 : StableHlo.after hostOps0 W (Proc.devRef .tc main_arg6) = W (Proc.devRef .tc main_arg6) := by after_results
theorem pass_hostOps0_arg7 : StableHlo.after hostOps0 W (Proc.devRef .tc main_arg7) = W (Proc.devRef .tc main_arg7) := by after_results
theorem pass_hostOps0_arg8 : StableHlo.after hostOps0 W (Proc.devRef .tc main_arg8) = W (Proc.devRef .tc main_arg8) := by after_results
theorem pass_hostOps0_arg9 : StableHlo.after hostOps0 W (Proc.devRef .tc main_arg9) = W (Proc.devRef .tc main_arg9) := by after_results
theorem pass_hostOps0_arg10 : StableHlo.after hostOps0 W (Proc.devRef .tc main_arg10) = W (Proc.devRef .tc main_arg10) := by after_results
theorem pass_hostOps0_1_v3 : StableHlo.after hostOps0_1 W (Proc.devRef .tc main_v3) = W (Proc.devRef .tc main_v3) := by after_results
theorem pass_hostOps0_1_v6 : StableHlo.after hostOps0_1 W (Proc.devRef .tc main_v6) = W (Proc.devRef .tc main_v6) := by after_results
theorem pass_hostOps0_1_arg0 : StableHlo.after hostOps0_1 W (Proc.devRef .tc main_arg0) = W (Proc.devRef .tc main_arg0) := by after_results
theorem pass_hostOps0_1_arg2 : StableHlo.after hostOps0_1 W (Proc.devRef .tc main_arg2) = W (Proc.devRef .tc main_arg2) := by after_results
theorem pass_hostOps0_1_arg3 : StableHlo.after hostOps0_1 W (Proc.devRef .tc main_arg3) = W (Proc.devRef .tc main_arg3) := by after_results
theorem pass_hostOps0_1_arg4 : StableHlo.after hostOps0_1 W (Proc.devRef .tc main_arg4) = W (Proc.devRef .tc main_arg4) := by after_results
theorem pass_hostOps0_1_arg5 : StableHlo.after hostOps0_1 W (Proc.devRef .tc main_arg5) = W (Proc.devRef .tc main_arg5) := by after_results
theorem pass_hostOps0_1_arg6 : StableHlo.after hostOps0_1 W (Proc.devRef .tc main_arg6) = W (Proc.devRef .tc main_arg6) := by after_results
theorem pass_hostOps0_1_arg7 : StableHlo.after hostOps0_1 W (Proc.devRef .tc main_arg7) = W (Proc.devRef .tc main_arg7) := by after_results
theorem pass_hostOps0_1_arg8 : StableHlo.after hostOps0_1 W (Proc.devRef .tc main_arg8) = W (Proc.devRef .tc main_arg8) := by after_results
theorem pass_hostOps0_1_arg9 : StableHlo.after hostOps0_1 W (Proc.devRef .tc main_arg9) = W (Proc.devRef .tc main_arg9) := by after_results
theorem pass_hostOps0_1_arg10 : StableHlo.after hostOps0_1 W (Proc.devRef .tc main_arg10) = W (Proc.devRef .tc main_arg10) := by after_results
theorem pass_hostOps0_2_v3 : StableHlo.after hostOps0_2 W (Proc.devRef .tc main_v3) = W (Proc.devRef .tc main_v3) := by after_results
theorem pass_hostOps0_2_v6 : StableHlo.after hostOps0_2 W (Proc.devRef .tc main_v6) = W (Proc.devRef .tc main_v6) := by after_results
theorem pass_hostOps0_2_arg0 : StableHlo.after hostOps0_2 W (Proc.devRef .tc main_arg0) = W (Proc.devRef .tc main_arg0) := by after_results
theorem pass_hostOps0_2_arg2 : StableHlo.after hostOps0_2 W (Proc.devRef .tc main_arg2) = W (Proc.devRef .tc main_arg2) := by after_results
theorem pass_hostOps0_2_arg3 : StableHlo.after hostOps0_2 W (Proc.devRef .tc main_arg3) = W (Proc.devRef .tc main_arg3) := by after_results
theorem pass_hostOps0_2_arg4 : StableHlo.after hostOps0_2 W (Proc.devRef .tc main_arg4) = W (Proc.devRef .tc main_arg4) := by after_results
theorem pass_hostOps0_2_arg5 : StableHlo.after hostOps0_2 W (Proc.devRef .tc main_arg5) = W (Proc.devRef .tc main_arg5) := by after_results
theorem pass_hostOps0_2_arg6 : StableHlo.after hostOps0_2 W (Proc.devRef .tc main_arg6) = W (Proc.devRef .tc main_arg6) := by after_results
theorem pass_hostOps0_2_arg7 : StableHlo.after hostOps0_2 W (Proc.devRef .tc main_arg7) = W (Proc.devRef .tc main_arg7) := by after_results
theorem pass_hostOps0_2_arg8 : StableHlo.after hostOps0_2 W (Proc.devRef .tc main_arg8) = W (Proc.devRef .tc main_arg8) := by after_results
theorem pass_hostOps0_2_arg9 : StableHlo.after hostOps0_2 W (Proc.devRef .tc main_arg9) = W (Proc.devRef .tc main_arg9) := by after_results
theorem pass_hostOps0_2_arg10 : StableHlo.after hostOps0_2 W (Proc.devRef .tc main_arg10) = W (Proc.devRef .tc main_arg10) := by after_results
theorem pass_hostOps1_v3 : StableHlo.after hostOps1 W (Proc.devRef .tc main_v3) = W (Proc.devRef .tc main_v3) := by after_results
theorem pass_hostOps1_v6 : StableHlo.after hostOps1 W (Proc.devRef .tc main_v6) = W (Proc.devRef .tc main_v6) := by after_results
theorem pass_hostOps1_v32 : StableHlo.after hostOps1 W (Proc.devRef .tc main_v32) = W (Proc.devRef .tc main_v32) := by after_results
theorem pass_hostOps1_arg2 : StableHlo.after hostOps1 W (Proc.devRef .tc main_arg2) = W (Proc.devRef .tc main_arg2) := by after_results
theorem pass_hostOps1_arg5 : StableHlo.after hostOps1 W (Proc.devRef .tc main_arg5) = W (Proc.devRef .tc main_arg5) := by after_results
theorem pass_hostOps1_arg6 : StableHlo.after hostOps1 W (Proc.devRef .tc main_arg6) = W (Proc.devRef .tc main_arg6) := by after_results
theorem pass_hostOps1_arg7 : StableHlo.after hostOps1 W (Proc.devRef .tc main_arg7) = W (Proc.devRef .tc main_arg7) := by after_results
theorem pass_hostOps1_arg8 : StableHlo.after hostOps1 W (Proc.devRef .tc main_arg8) = W (Proc.devRef .tc main_arg8) := by after_results
theorem pass_hostOps1_arg9 : StableHlo.after hostOps1 W (Proc.devRef .tc main_arg9) = W (Proc.devRef .tc main_arg9) := by after_results
theorem pass_hostOps1_arg10 : StableHlo.after hostOps1 W (Proc.devRef .tc main_arg10) = W (Proc.devRef .tc main_arg10) := by after_results
theorem pass_hostOps3_v3 : StableHlo.after hostOps3 W (Proc.devRef .tc main_v3) = W (Proc.devRef .tc main_v3) := by after_results
theorem pass_hostOps3_v6 : StableHlo.after hostOps3 W (Proc.devRef .tc main_v6) = W (Proc.devRef .tc main_v6) := by after_results
theorem pass_hostOps3_v32 : StableHlo.after hostOps3 W (Proc.devRef .tc main_v32) = W (Proc.devRef .tc main_v32) := by after_results
theorem pass_hostOps3_arg2 : StableHlo.after hostOps3 W (Proc.devRef .tc main_arg2) = W (Proc.devRef .tc main_arg2) := by after_results
theorem pass_hostOps3_arg7 : StableHlo.after hostOps3 W (Proc.devRef .tc main_arg7) = W (Proc.devRef .tc main_arg7) := by after_results
theorem pass_hostOps3_arg8 : StableHlo.after hostOps3 W (Proc.devRef .tc main_arg8) = W (Proc.devRef .tc main_arg8) := by after_results
theorem pass_hostOps3_arg9 : StableHlo.after hostOps3 W (Proc.devRef .tc main_arg9) = W (Proc.devRef .tc main_arg9) := by after_results
theorem pass_hostOps3_arg10 : StableHlo.after hostOps3 W (Proc.devRef .tc main_arg10) = W (Proc.devRef .tc main_arg10) := by after_results
theorem pass_hostOps5_arg2 : StableHlo.after hostOps5 W (Proc.devRef .tc main_arg2) = W (Proc.devRef .tc main_arg2) := by after_results
theorem pass_hostOps5_arg9 : StableHlo.after hostOps5 W (Proc.devRef .tc main_arg9) = W (Proc.devRef .tc main_arg9) := by after_results
theorem pass_hostOps5_arg10 : StableHlo.after hostOps5 W (Proc.devRef .tc main_arg10) = W (Proc.devRef .tc main_arg10) := by after_results
theorem pass_hostOps6_arg9 : StableHlo.after hostOps6 W (Proc.devRef .tc main_arg9) = W (Proc.devRef .tc main_arg9) := by after_results

end Stretches

/-! ## The fourteen boundaries -/

variable (m : (ℓ : Loc nD τ sig) → Buf (Elt Ideal) ℓ) (ρ : Dev nD → PrngReg) (c : Dev nD)

theorem head_congr {g g' : S256x128.Idx → EReal} {w w' : S128x1.Idx → EReal} {b b' : S1x1.Idx → EReal}
    (hg : g = g') (hw : w = w') (hb : b = b') :
    headAt (M := 256) (K := 128) g w b = headAt (M := 256) (K := 128) g' w' b' := by subst hg hw hb; rfl

/-! ### The launch -/

theorem E0_arg0 : W0 m ρ c (Proc.devRef .tc main_arg0) = (m ((c.tc : Thread nD τ).loc main_arg0)) := rfl
theorem E0_arg1 : W0 m ρ c (Proc.devRef .tc main_arg1) = (m ((c.tc : Thread nD τ).loc main_arg1)) := rfl
theorem E0_arg2 : W0 m ρ c (Proc.devRef .tc main_arg2) = (m ((c.tc : Thread nD τ).loc main_arg2)) := rfl
theorem E0_arg3 : W0 m ρ c (Proc.devRef .tc main_arg3) = (m ((c.tc : Thread nD τ).loc main_arg3)) := rfl
theorem E0_arg4 : W0 m ρ c (Proc.devRef .tc main_arg4) = (m ((c.tc : Thread nD τ).loc main_arg4)) := rfl
theorem E0_arg5 : W0 m ρ c (Proc.devRef .tc main_arg5) = (m ((c.tc : Thread nD τ).loc main_arg5)) := rfl
theorem E0_arg6 : W0 m ρ c (Proc.devRef .tc main_arg6) = (m ((c.tc : Thread nD τ).loc main_arg6)) := rfl
theorem E0_arg7 : W0 m ρ c (Proc.devRef .tc main_arg7) = (m ((c.tc : Thread nD τ).loc main_arg7)) := rfl
theorem E0_arg8 : W0 m ρ c (Proc.devRef .tc main_arg8) = (m ((c.tc : Thread nD τ).loc main_arg8)) := rfl
theorem E0_arg9 : W0 m ρ c (Proc.devRef .tc main_arg9) = (m ((c.tc : Thread nD τ).loc main_arg9)) := rfl
theorem E0_arg10 : W0 m ρ c (Proc.devRef .tc main_arg10) = (m ((c.tc : Thread nD τ).loc main_arg10)) := rfl

/-! ### After the first stretch: the edge lists with self loops, the degree mask and its inverse square root -/

theorem E1_arg0 : W1 m ρ c (Proc.devRef .tc main_arg0) = (m ((c.tc : Thread nD τ).loc main_arg0)) :=
  (pass_hostOps0_arg0 (W0 m ρ c)).trans (E0_arg0 m ρ c)
theorem E1_arg2 : W1 m ρ c (Proc.devRef .tc main_arg2) = (m ((c.tc : Thread nD τ).loc main_arg2)) :=
  (pass_hostOps0_arg2 (W0 m ρ c)).trans (E0_arg2 m ρ c)
theorem E1_arg3 : W1 m ρ c (Proc.devRef .tc main_arg3) = (m ((c.tc : Thread nD τ).loc main_arg3)) :=
  (pass_hostOps0_arg3 (W0 m ρ c)).trans (E0_arg3 m ρ c)
theorem E1_arg4 : W1 m ρ c (Proc.devRef .tc main_arg4) = (m ((c.tc : Thread nD τ).loc main_arg4)) :=
  (pass_hostOps0_arg4 (W0 m ρ c)).trans (E0_arg4 m ρ c)
theorem E1_arg5 : W1 m ρ c (Proc.devRef .tc main_arg5) = (m ((c.tc : Thread nD τ).loc main_arg5)) :=
  (pass_hostOps0_arg5 (W0 m ρ c)).trans (E0_arg5 m ρ c)
theorem E1_arg6 : W1 m ρ c (Proc.devRef .tc main_arg6) = (m ((c.tc : Thread nD τ).loc main_arg6)) :=
  (pass_hostOps0_arg6 (W0 m ρ c)).trans (E0_arg6 m ρ c)
theorem E1_arg7 : W1 m ρ c (Proc.devRef .tc main_arg7) = (m ((c.tc : Thread nD τ).loc main_arg7)) :=
  (pass_hostOps0_arg7 (W0 m ρ c)).trans (E0_arg7 m ρ c)
theorem E1_arg8 : W1 m ρ c (Proc.devRef .tc main_arg8) = (m ((c.tc : Thread nD τ).loc main_arg8)) :=
  (pass_hostOps0_arg8 (W0 m ρ c)).trans (E0_arg8 m ρ c)
theorem E1_arg9 : W1 m ρ c (Proc.devRef .tc main_arg9) = (m ((c.tc : Thread nD τ).loc main_arg9)) :=
  (pass_hostOps0_arg9 (W0 m ρ c)).trans (E0_arg9 m ρ c)
theorem E1_arg10 : W1 m ρ c (Proc.devRef .tc main_arg10) = (m ((c.tc : Thread nD τ).loc main_arg10)) :=
  (pass_hostOps0_arg10 (W0 m ρ c)).trans (E0_arg10 m ρ c)
theorem E1_v3 : W1 m ρ c (Proc.devRef .tc main_v3) = Cert.ReferenceIdeal.ReadP.val_main_v3 (F := Ideal) (m ((c.tc : Thread nD τ).loc main_arg1)) := s0_v3 (W0 m ρ c)
theorem E1_v6 : W1 m ρ c (Proc.devRef .tc main_v6) = Cert.ReferenceIdeal.ReadP.val_main_v6 (F := Ideal) (m ((c.tc : Thread nD τ).loc main_arg1)) := s0_v6 (W0 m ρ c)
theorem E1_v12 : W1 m ρ c (Proc.devRef .tc main_v12) = Cert.ReferenceIdeal.ReadP.val_main_v12 (F := Ideal) (m ((c.tc : Thread nD τ).loc main_arg1)) := s0_v12 (W0 m ρ c)
theorem E1_v15 : W1 m ρ c (Proc.devRef .tc main_v15) = Cert.ReferenceIdeal.ReadP.val_main_v15 (F := Ideal) (m ((c.tc : Thread nD τ).loc main_arg1)) := s0_v15 (W0 m ρ c)
theorem E1_cst_3 : W1 m ρ c (Proc.devRef .tc main_cst_3) = Cert.ReferenceIdeal.ReadP.val_main_cst_3 (F := Ideal) := s0_cst_3 (W0 m ρ c)

/-! ### After the inlined select -/

theorem E2_v3 : W2 m ρ c (Proc.devRef .tc main_v3) = Cert.ReferenceIdeal.ReadP.val_main_v3 (F := Ideal) (m ((c.tc : Thread nD τ).loc main_arg1)) :=
  (pass_hostOps0_1_v3 (W1 m ρ c)).trans (E1_v3 m ρ c)
theorem E2_v6 : W2 m ρ c (Proc.devRef .tc main_v6) = Cert.ReferenceIdeal.ReadP.val_main_v6 (F := Ideal) (m ((c.tc : Thread nD τ).loc main_arg1)) :=
  (pass_hostOps0_1_v6 (W1 m ρ c)).trans (E1_v6 m ρ c)
theorem E2_arg0 : W2 m ρ c (Proc.devRef .tc main_arg0) = (m ((c.tc : Thread nD τ).loc main_arg0)) :=
  (pass_hostOps0_1_arg0 (W1 m ρ c)).trans (E1_arg0 m ρ c)
theorem E2_arg2 : W2 m ρ c (Proc.devRef .tc main_arg2) = (m ((c.tc : Thread nD τ).loc main_arg2)) :=
  (pass_hostOps0_1_arg2 (W1 m ρ c)).trans (E1_arg2 m ρ c)
theorem E2_arg3 : W2 m ρ c (Proc.devRef .tc main_arg3) = (m ((c.tc : Thread nD τ).loc main_arg3)) :=
  (pass_hostOps0_1_arg3 (W1 m ρ c)).trans (E1_arg3 m ρ c)
theorem E2_arg4 : W2 m ρ c (Proc.devRef .tc main_arg4) = (m ((c.tc : Thread nD τ).loc main_arg4)) :=
  (pass_hostOps0_1_arg4 (W1 m ρ c)).trans (E1_arg4 m ρ c)
theorem E2_arg5 : W2 m ρ c (Proc.devRef .tc main_arg5) = (m ((c.tc : Thread nD τ).loc main_arg5)) :=
  (pass_hostOps0_1_arg5 (W1 m ρ c)).trans (E1_arg5 m ρ c)
theorem E2_arg6 : W2 m ρ c (Proc.devRef .tc main_arg6) = (m ((c.tc : Thread nD τ).loc main_arg6)) :=
  (pass_hostOps0_1_arg6 (W1 m ρ c)).trans (E1_arg6 m ρ c)
theorem E2_arg7 : W2 m ρ c (Proc.devRef .tc main_arg7) = (m ((c.tc : Thread nD τ).loc main_arg7)) :=
  (pass_hostOps0_1_arg7 (W1 m ρ c)).trans (E1_arg7 m ρ c)
theorem E2_arg8 : W2 m ρ c (Proc.devRef .tc main_arg8) = (m ((c.tc : Thread nD τ).loc main_arg8)) :=
  (pass_hostOps0_1_arg8 (W1 m ρ c)).trans (E1_arg8 m ρ c)
theorem E2_arg9 : W2 m ρ c (Proc.devRef .tc main_arg9) = (m ((c.tc : Thread nD τ).loc main_arg9)) :=
  (pass_hostOps0_1_arg9 (W1 m ρ c)).trans (E1_arg9 m ρ c)
theorem E2_arg10 : W2 m ρ c (Proc.devRef .tc main_arg10) = (m ((c.tc : Thread nD τ).loc main_arg10)) :=
  (pass_hostOps0_1_arg10 (W1 m ρ c)).trans (E1_arg10 m ρ c)
theorem E2_v16 : W2 m ρ c (Proc.devRef .tc main_v16) = Cert.ReferenceIdeal.ReadP.val_main_v16 (F := Ideal) (m ((c.tc : Thread nD τ).loc main_arg1)) :=
  (s01_v16 (W1 m ρ c) _ _ _ (E1_v12 m ρ c) (E1_v15 m ρ c) (E1_cst_3 m ρ c)).trans (by
    unfold Cert.ReferenceIdeal.ReadP.val_main_v16 Cert.ReferenceIdeal.ReadP.val_main_call0_v1 Cert.ReferenceIdeal.ReadP.val_main_call0_v0
    rfl)

/-! ### After the third stretch: the edge normalisation -/

theorem E3_v3 : W3 m ρ c (Proc.devRef .tc main_v3) = Cert.ReferenceIdeal.ReadP.val_main_v3 (F := Ideal) (m ((c.tc : Thread nD τ).loc main_arg1)) :=
  (pass_hostOps0_2_v3 (W2 m ρ c)).trans (E2_v3 m ρ c)
theorem E3_v6 : W3 m ρ c (Proc.devRef .tc main_v6) = Cert.ReferenceIdeal.ReadP.val_main_v6 (F := Ideal) (m ((c.tc : Thread nD τ).loc main_arg1)) :=
  (pass_hostOps0_2_v6 (W2 m ρ c)).trans (E2_v6 m ρ c)
theorem E3_arg0 : W3 m ρ c (Proc.devRef .tc main_arg0) = (m ((c.tc : Thread nD τ).loc main_arg0)) :=
  (pass_hostOps0_2_arg0 (W2 m ρ c)).trans (E2_arg0 m ρ c)
theorem E3_arg2 : W3 m ρ c (Proc.devRef .tc main_arg2) = (m ((c.tc : Thread nD τ).loc main_arg2)) :=
  (pass_hostOps0_2_arg2 (W2 m ρ c)).trans (E2_arg2 m ρ c)
theorem E3_arg3 : W3 m ρ c (Proc.devRef .tc main_arg3) = (m ((c.tc : Thread nD τ).loc main_arg3)) :=
  (pass_hostOps0_2_arg3 (W2 m ρ c)).trans (E2_arg3 m ρ c)
theorem E3_arg4 : W3 m ρ c (Proc.devRef .tc main_arg4) = (m ((c.tc : Thread nD τ).loc main_arg4)) :=
  (pass_hostOps0_2_arg4 (W2 m ρ c)).trans (E2_arg4 m ρ c)
theorem E3_arg5 : W3 m ρ c (Proc.devRef .tc main_arg5) = (m ((c.tc : Thread nD τ).loc main_arg5)) :=
  (pass_hostOps0_2_arg5 (W2 m ρ c)).trans (E2_arg5 m ρ c)
theorem E3_arg6 : W3 m ρ c (Proc.devRef .tc main_arg6) = (m ((c.tc : Thread nD τ).loc main_arg6)) :=
  (pass_hostOps0_2_arg6 (W2 m ρ c)).trans (E2_arg6 m ρ c)
theorem E3_arg7 : W3 m ρ c (Proc.devRef .tc main_arg7) = (m ((c.tc : Thread nD τ).loc main_arg7)) :=
  (pass_hostOps0_2_arg7 (W2 m ρ c)).trans (E2_arg7 m ρ c)
theorem E3_arg8 : W3 m ρ c (Proc.devRef .tc main_arg8) = (m ((c.tc : Thread nD τ).loc main_arg8)) :=
  (pass_hostOps0_2_arg8 (W2 m ρ c)).trans (E2_arg8 m ρ c)
theorem E3_arg9 : W3 m ρ c (Proc.devRef .tc main_arg9) = (m ((c.tc : Thread nD τ).loc main_arg9)) :=
  (pass_hostOps0_2_arg9 (W2 m ρ c)).trans (E2_arg9 m ρ c)
theorem E3_arg10 : W3 m ρ c (Proc.devRef .tc main_arg10) = (m ((c.tc : Thread nD τ).loc main_arg10)) :=
  (pass_hostOps0_2_arg10 (W2 m ρ c)).trans (E2_arg10 m ρ c)
theorem E3_v32 : W3 m ρ c (Proc.devRef .tc main_v32) = Cert.ReferenceIdeal.ReadP.val_main_v32 (F := Ideal) (m ((c.tc : Thread nD τ).loc main_arg1)) := s02_v32 (W2 m ρ c) _ (E2_v3 m ρ c) (E2_v6 m ρ c) (E2_v16 m ρ c)

/-! ### After region 0: the first projection -/

theorem E4_v33 : W4 m ρ c (Proc.devRef .tc main_v33) = Cert.ReferenceIdeal.ReadP.val_main_v33 (F := Ideal) (m ((c.tc : Thread nD τ).loc main_arg0)) (m ((c.tc : Thread nD τ).loc main_arg3)) :=
  (W4_arr m ρ c 2).trans ((Cert.KernelIdeal.Blocks0.final (V3 m ρ) c).trans
    ((congrArg₂ (prodAt (M := 100000) (K := 5) (N := 128)) (E3_arg0 m ρ c) (E3_arg3 m ρ c)).trans (Cert.Bridge.prod_v33 _ _)))
theorem E4_v3 : W4 m ρ c (Proc.devRef .tc main_v3) = Cert.ReferenceIdeal.ReadP.val_main_v3 (F := Ideal) (m ((c.tc : Thread nD τ).loc main_arg1)) :=
  (W4_of_ne m ρ c main_v3 (by decide)).trans (E3_v3 m ρ c)
theorem E4_v6 : W4 m ρ c (Proc.devRef .tc main_v6) = Cert.ReferenceIdeal.ReadP.val_main_v6 (F := Ideal) (m ((c.tc : Thread nD τ).loc main_arg1)) :=
  (W4_of_ne m ρ c main_v6 (by decide)).trans (E3_v6 m ρ c)
theorem E4_v32 : W4 m ρ c (Proc.devRef .tc main_v32) = Cert.ReferenceIdeal.ReadP.val_main_v32 (F := Ideal) (m ((c.tc : Thread nD τ).loc main_arg1)) :=
  (W4_of_ne m ρ c main_v32 (by decide)).trans (E3_v32 m ρ c)
theorem E4_arg2 : W4 m ρ c (Proc.devRef .tc main_arg2) = (m ((c.tc : Thread nD τ).loc main_arg2)) :=
  (W4_of_ne m ρ c main_arg2 (by decide)).trans (E3_arg2 m ρ c)
theorem E4_arg4 : W4 m ρ c (Proc.devRef .tc main_arg4) = (m ((c.tc : Thread nD τ).loc main_arg4)) :=
  (W4_of_ne m ρ c main_arg4 (by decide)).trans (E3_arg4 m ρ c)
theorem E4_arg5 : W4 m ρ c (Proc.devRef .tc main_arg5) = (m ((c.tc : Thread nD τ).loc main_arg5)) :=
  (W4_of_ne m ρ c main_arg5 (by decide)).trans (E3_arg5 m ρ c)
theorem E4_arg6 : W4 m ρ c (Proc.devRef .tc main_arg6) = (m ((c.tc : Thread nD τ).loc main_arg6)) :=
  (W4_of_ne m ρ c main_arg6 (by decide)).trans (E3_arg6 m ρ c)
theorem E4_arg7 : W4 m ρ c (Proc.devRef .tc main_arg7) = (m ((c.tc : Thread nD τ).loc main_arg7)) :=
  (W4_of_ne m ρ c main_arg7 (by decide)).trans (E3_arg7 m ρ c)
theorem E4_arg8 : W4 m ρ c (Proc.devRef .tc main_arg8) = (m ((c.tc : Thread nD τ).loc main_arg8)) :=
  (W4_of_ne m ρ c main_arg8 (by decide)).trans (E3_arg8 m ρ c)
theorem E4_arg9 : W4 m ρ c (Proc.devRef .tc main_arg9) = (m ((c.tc : Thread nD τ).loc main_arg9)) :=
  (W4_of_ne m ρ c main_arg9 (by decide)).trans (E3_arg9 m ρ c)
theorem E4_arg10 : W4 m ρ c (Proc.devRef .tc main_arg10) = (m ((c.tc : Thread nD τ).loc main_arg10)) :=
  (W4_of_ne m ρ c main_arg10 (by decide)).trans (E3_arg10 m ρ c)

/-! ### After the stretch between regions 0 and 1: gather, scale, scatter-add -/

theorem E5_v45 : W5 m ρ c (Proc.devRef .tc main_v45) = Cert.ReferenceIdeal.ReadP.val_main_v45 (F := Ideal) (m ((c.tc : Thread nD τ).loc main_arg0)) (m ((c.tc : Thread nD τ).loc main_arg1)) (m ((c.tc : Thread nD τ).loc main_arg3)) := s1_v45 (W4 m ρ c) _ _ _ (E4_v33 m ρ c) (E4_v3 m ρ c) (E4_v6 m ρ c) (E4_v32 m ρ c)
theorem E5_v46 : W5 m ρ c (Proc.devRef .tc main_v46) = shapeCast S1x128 (m ((c.tc : Thread nD τ).loc main_arg4)) shapeCasts_S128_S1x128 :=
  (s1_v46 (W4 m ρ c)).trans (congrArg (fun t => shapeCast S1x128 t shapeCasts_S128_S1x128) (E4_arg4 m ρ c))
theorem E5_v3 : W5 m ρ c (Proc.devRef .tc main_v3) = Cert.ReferenceIdeal.ReadP.val_main_v3 (F := Ideal) (m ((c.tc : Thread nD τ).loc main_arg1)) :=
  (pass_hostOps1_v3 (W4 m ρ c)).trans (E4_v3 m ρ c)
theorem E5_v6 : W5 m ρ c (Proc.devRef .tc main_v6) = Cert.ReferenceIdeal.ReadP.val_main_v6 (F := Ideal) (m ((c.tc : Thread nD τ).loc main_arg1)) :=
  (pass_hostOps1_v6 (W4 m ρ c)).trans (E4_v6 m ρ c)
theorem E5_v32 : W5 m ρ c (Proc.devRef .tc main_v32) = Cert.ReferenceIdeal.ReadP.val_main_v32 (F := Ideal) (m ((c.tc : Thread nD τ).loc main_arg1)) :=
  (pass_hostOps1_v32 (W4 m ρ c)).trans (E4_v32 m ρ c)
theorem E5_arg2 : W5 m ρ c (Proc.devRef .tc main_arg2) = (m ((c.tc : Thread nD τ).loc main_arg2)) :=
  (pass_hostOps1_arg2 (W4 m ρ c)).trans (E4_arg2 m ρ c)
theorem E5_arg5 : W5 m ρ c (Proc.devRef .tc main_arg5) = (m ((c.tc : Thread nD τ).loc main_arg5)) :=
  (pass_hostOps1_arg5 (W4 m ρ c)).trans (E4_arg5 m ρ c)
theorem E5_arg6 : W5 m ρ c (Proc.devRef .tc main_arg6) = (m ((c.tc : Thread nD τ).loc main_arg6)) :=
  (pass_hostOps1_arg6 (W4 m ρ c)).trans (E4_arg6 m ρ c)
theorem E5_arg7 : W5 m ρ c (Proc.devRef .tc main_arg7) = (m ((c.tc : Thread nD τ).loc main_arg7)) :=
  (pass_hostOps1_arg7 (W4 m ρ c)).trans (E4_arg7 m ρ c)
theorem E5_arg8 : W5 m ρ c (Proc.devRef .tc main_arg8) = (m ((c.tc : Thread nD τ).loc main_arg8)) :=
  (pass_hostOps1_arg8 (W4 m ρ c)).trans (E4_arg8 m ρ c)
theorem E5_arg9 : W5 m ρ c (Proc.devRef .tc main_arg9) = (m ((c.tc : Thread nD τ).loc main_arg9)) :=
  (pass_hostOps1_arg9 (W4 m ρ c)).trans (E4_arg9 m ρ c)
theorem E5_arg10 : W5 m ρ c (Proc.devRef .tc main_arg10) = (m ((c.tc : Thread nD τ).loc main_arg10)) :=
  (pass_hostOps1_arg10 (W4 m ρ c)).trans (E4_arg10 m ρ c)

/-! ### After regions 1 and 2: bias and clip, then the second projection -/

theorem E6_v47 : W6 m ρ c (Proc.devRef .tc main_v47) = Cert.ReferenceIdeal.ReadP.val_main_v49 (F := Ideal) (m ((c.tc : Thread nD τ).loc main_arg0)) (m ((c.tc : Thread nD τ).loc main_arg1)) (m ((c.tc : Thread nD τ).loc main_arg3)) (m ((c.tc : Thread nD τ).loc main_arg4)) :=
  (W6_arr m ρ c 2).trans ((Cert.KernelIdeal.Blocks1.final (V5 m ρ) c).trans
    ((congrArg₂ (rowShiftClip (M := 100000) (N := 128)) (E5_v45 m ρ c) (E5_v46 m ρ c)).trans (Cert.Bridge.shift_v49 _ _ _ _ _)))
theorem E6_v3 : W6 m ρ c (Proc.devRef .tc main_v3) = Cert.ReferenceIdeal.ReadP.val_main_v3 (F := Ideal) (m ((c.tc : Thread nD τ).loc main_arg1)) :=
  (W6_of_ne m ρ c main_v3 (by decide)).trans (E5_v3 m ρ c)
theorem E6_v6 : W6 m ρ c (Proc.devRef .tc main_v6) = Cert.ReferenceIdeal.ReadP.val_main_v6 (F := Ideal) (m ((c.tc : Thread nD τ).loc main_arg1)) :=
  (W6_of_ne m ρ c main_v6 (by decide)).trans (E5_v6 m ρ c)
theorem E6_v32 : W6 m ρ c (Proc.devRef .tc main_v32) = Cert.ReferenceIdeal.ReadP.val_main_v32 (F := Ideal) (m ((c.tc : Thread nD τ).loc main_arg1)) :=
  (W6_of_ne m ρ c main_v32 (by decide)).trans (E5_v32 m ρ c)
theorem E6_arg2 : W6 m ρ c (Proc.devRef .tc main_arg2) = (m ((c.tc : Thread nD τ).loc main_arg2)) :=
  (W6_of_ne m ρ c main_arg2 (by decide)).trans (E5_arg2 m ρ c)
theorem E6_arg5 : W6 m ρ c (Proc.devRef .tc main_arg5) = (m ((c.tc : Thread nD τ).loc main_arg5)) :=
  (W6_of_ne m ρ c main_arg5 (by decide)).trans (E5_arg5 m ρ c)
theorem E6_arg6 : W6 m ρ c (Proc.devRef .tc main_arg6) = (m ((c.tc : Thread nD τ).loc main_arg6)) :=
  (W6_of_ne m ρ c main_arg6 (by decide)).trans (E5_arg6 m ρ c)
theorem E6_arg7 : W6 m ρ c (Proc.devRef .tc main_arg7) = (m ((c.tc : Thread nD τ).loc main_arg7)) :=
  (W6_of_ne m ρ c main_arg7 (by decide)).trans (E5_arg7 m ρ c)
theorem E6_arg8 : W6 m ρ c (Proc.devRef .tc main_arg8) = (m ((c.tc : Thread nD τ).loc main_arg8)) :=
  (W6_of_ne m ρ c main_arg8 (by decide)).trans (E5_arg8 m ρ c)
theorem E6_arg9 : W6 m ρ c (Proc.devRef .tc main_arg9) = (m ((c.tc : Thread nD τ).loc main_arg9)) :=
  (W6_of_ne m ρ c main_arg9 (by decide)).trans (E5_arg9 m ρ c)
theorem E6_arg10 : W6 m ρ c (Proc.devRef .tc main_arg10) = (m ((c.tc : Thread nD τ).loc main_arg10)) :=
  (W6_of_ne m ρ c main_arg10 (by decide)).trans (E5_arg10 m ρ c)
theorem E7_v48 : W7 m ρ c (Proc.devRef .tc main_v48) = Cert.ReferenceIdeal.ReadP.val_main_v50 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (W7_arr m ρ c 2).trans ((Cert.KernelIdeal.Blocks2.final (V6 m ρ) c).trans
    ((congrArg₂ (prodAt (M := 100000) (K := 128) (N := 128)) (E6_v47 m ρ c) (E6_arg5 m ρ c)).trans (Cert.Bridge.prod_v50 _ _ _ _ _)))
theorem E7_v3 : W7 m ρ c (Proc.devRef .tc main_v3) = Cert.ReferenceIdeal.ReadP.val_main_v3 (F := Ideal) (m ((c.tc : Thread nD τ).loc main_arg1)) :=
  (W7_of_ne m ρ c main_v3 (by decide)).trans (E6_v3 m ρ c)
theorem E7_v6 : W7 m ρ c (Proc.devRef .tc main_v6) = Cert.ReferenceIdeal.ReadP.val_main_v6 (F := Ideal) (m ((c.tc : Thread nD τ).loc main_arg1)) :=
  (W7_of_ne m ρ c main_v6 (by decide)).trans (E6_v6 m ρ c)
theorem E7_v32 : W7 m ρ c (Proc.devRef .tc main_v32) = Cert.ReferenceIdeal.ReadP.val_main_v32 (F := Ideal) (m ((c.tc : Thread nD τ).loc main_arg1)) :=
  (W7_of_ne m ρ c main_v32 (by decide)).trans (E6_v32 m ρ c)
theorem E7_arg2 : W7 m ρ c (Proc.devRef .tc main_arg2) = (m ((c.tc : Thread nD τ).loc main_arg2)) :=
  (W7_of_ne m ρ c main_arg2 (by decide)).trans (E6_arg2 m ρ c)
theorem E7_arg6 : W7 m ρ c (Proc.devRef .tc main_arg6) = (m ((c.tc : Thread nD τ).loc main_arg6)) :=
  (W7_of_ne m ρ c main_arg6 (by decide)).trans (E6_arg6 m ρ c)
theorem E7_arg7 : W7 m ρ c (Proc.devRef .tc main_arg7) = (m ((c.tc : Thread nD τ).loc main_arg7)) :=
  (W7_of_ne m ρ c main_arg7 (by decide)).trans (E6_arg7 m ρ c)
theorem E7_arg8 : W7 m ρ c (Proc.devRef .tc main_arg8) = (m ((c.tc : Thread nD τ).loc main_arg8)) :=
  (W7_of_ne m ρ c main_arg8 (by decide)).trans (E6_arg8 m ρ c)
theorem E7_arg9 : W7 m ρ c (Proc.devRef .tc main_arg9) = (m ((c.tc : Thread nD τ).loc main_arg9)) :=
  (W7_of_ne m ρ c main_arg9 (by decide)).trans (E6_arg9 m ρ c)
theorem E7_arg10 : W7 m ρ c (Proc.devRef .tc main_arg10) = (m ((c.tc : Thread nD τ).loc main_arg10)) :=
  (W7_of_ne m ρ c main_arg10 (by decide)).trans (E6_arg10 m ρ c)

/-! ### The second layer's aggregation, bias and clip, and the third projection -/

theorem E8_v60 : W8 m ρ c (Proc.devRef .tc main_v60) = Cert.ReferenceIdeal.ReadP.val_main_v62 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := s3_v60 (W7 m ρ c) _ _ _ _ _ (E7_v48 m ρ c) (E7_v3 m ρ c) (E7_v6 m ρ c) (E7_v32 m ρ c)
theorem E8_v61 : W8 m ρ c (Proc.devRef .tc main_v61) = shapeCast S1x128 (m ((c.tc : Thread nD τ).loc main_arg6)) shapeCasts_S128_S1x128 :=
  (s3_v61 (W7 m ρ c)).trans (congrArg (fun t => shapeCast S1x128 t shapeCasts_S128_S1x128) (E7_arg6 m ρ c))
theorem E8_v3 : W8 m ρ c (Proc.devRef .tc main_v3) = Cert.ReferenceIdeal.ReadP.val_main_v3 (F := Ideal) (m ((c.tc : Thread nD τ).loc main_arg1)) :=
  (pass_hostOps3_v3 (W7 m ρ c)).trans (E7_v3 m ρ c)
theorem E8_v6 : W8 m ρ c (Proc.devRef .tc main_v6) = Cert.ReferenceIdeal.ReadP.val_main_v6 (F := Ideal) (m ((c.tc : Thread nD τ).loc main_arg1)) :=
  (pass_hostOps3_v6 (W7 m ρ c)).trans (E7_v6 m ρ c)
theorem E8_v32 : W8 m ρ c (Proc.devRef .tc main_v32) = Cert.ReferenceIdeal.ReadP.val_main_v32 (F := Ideal) (m ((c.tc : Thread nD τ).loc main_arg1)) :=
  (pass_hostOps3_v32 (W7 m ρ c)).trans (E7_v32 m ρ c)
theorem E8_arg2 : W8 m ρ c (Proc.devRef .tc main_arg2) = (m ((c.tc : Thread nD τ).loc main_arg2)) :=
  (pass_hostOps3_arg2 (W7 m ρ c)).trans (E7_arg2 m ρ c)
theorem E8_arg7 : W8 m ρ c (Proc.devRef .tc main_arg7) = (m ((c.tc : Thread nD τ).loc main_arg7)) :=
  (pass_hostOps3_arg7 (W7 m ρ c)).trans (E7_arg7 m ρ c)
theorem E8_arg8 : W8 m ρ c (Proc.devRef .tc main_arg8) = (m ((c.tc : Thread nD τ).loc main_arg8)) :=
  (pass_hostOps3_arg8 (W7 m ρ c)).trans (E7_arg8 m ρ c)
theorem E8_arg9 : W8 m ρ c (Proc.devRef .tc main_arg9) = (m ((c.tc : Thread nD τ).loc main_arg9)) :=
  (pass_hostOps3_arg9 (W7 m ρ c)).trans (E7_arg9 m ρ c)
theorem E8_arg10 : W8 m ρ c (Proc.devRef .tc main_arg10) = (m ((c.tc : Thread nD τ).loc main_arg10)) :=
  (pass_hostOps3_arg10 (W7 m ρ c)).trans (E7_arg10 m ρ c)
theorem E9_v62 : W9 m ρ c (Proc.devRef .tc main_v62) = Cert.ReferenceIdeal.ReadP.val_main_v66 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (W9_arr m ρ c 2).trans ((Cert.KernelIdeal.Blocks3.final (V8 m ρ) c).trans
    ((congrArg₂ (rowShiftClip (M := 100000) (N := 128)) (E8_v60 m ρ c) (E8_v61 m ρ c)).trans (Cert.Bridge.shift_v66 _ _ _ _ _ _ _)))
theorem E9_v3 : W9 m ρ c (Proc.devRef .tc main_v3) = Cert.ReferenceIdeal.ReadP.val_main_v3 (F := Ideal) (m ((c.tc : Thread nD τ).loc main_arg1)) :=
  (W9_of_ne m ρ c main_v3 (by decide)).trans (E8_v3 m ρ c)
theorem E9_v6 : W9 m ρ c (Proc.devRef .tc main_v6) = Cert.ReferenceIdeal.ReadP.val_main_v6 (F := Ideal) (m ((c.tc : Thread nD τ).loc main_arg1)) :=
  (W9_of_ne m ρ c main_v6 (by decide)).trans (E8_v6 m ρ c)
theorem E9_v32 : W9 m ρ c (Proc.devRef .tc main_v32) = Cert.ReferenceIdeal.ReadP.val_main_v32 (F := Ideal) (m ((c.tc : Thread nD τ).loc main_arg1)) :=
  (W9_of_ne m ρ c main_v32 (by decide)).trans (E8_v32 m ρ c)
theorem E9_arg2 : W9 m ρ c (Proc.devRef .tc main_arg2) = (m ((c.tc : Thread nD τ).loc main_arg2)) :=
  (W9_of_ne m ρ c main_arg2 (by decide)).trans (E8_arg2 m ρ c)
theorem E9_arg7 : W9 m ρ c (Proc.devRef .tc main_arg7) = (m ((c.tc : Thread nD τ).loc main_arg7)) :=
  (W9_of_ne m ρ c main_arg7 (by decide)).trans (E8_arg7 m ρ c)
theorem E9_arg8 : W9 m ρ c (Proc.devRef .tc main_arg8) = (m ((c.tc : Thread nD τ).loc main_arg8)) :=
  (W9_of_ne m ρ c main_arg8 (by decide)).trans (E8_arg8 m ρ c)
theorem E9_arg9 : W9 m ρ c (Proc.devRef .tc main_arg9) = (m ((c.tc : Thread nD τ).loc main_arg9)) :=
  (W9_of_ne m ρ c main_arg9 (by decide)).trans (E8_arg9 m ρ c)
theorem E9_arg10 : W9 m ρ c (Proc.devRef .tc main_arg10) = (m ((c.tc : Thread nD τ).loc main_arg10)) :=
  (W9_of_ne m ρ c main_arg10 (by decide)).trans (E8_arg10 m ρ c)
theorem E10_v63 : W10 m ρ c (Proc.devRef .tc main_v63) = Cert.ReferenceIdeal.ReadP.val_main_v67 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W10_arr m ρ c 2).trans ((Cert.KernelIdeal.Blocks4.final (V9 m ρ) c).trans
    ((congrArg₂ (prodAt (M := 100000) (K := 128) (N := 128)) (E9_v62 m ρ c) (E9_arg7 m ρ c)).trans (Cert.Bridge.prod_v67 _ _ _ _ _ _ _)))
theorem E10_v3 : W10 m ρ c (Proc.devRef .tc main_v3) = Cert.ReferenceIdeal.ReadP.val_main_v3 (F := Ideal) (m ((c.tc : Thread nD τ).loc main_arg1)) :=
  (W10_of_ne m ρ c main_v3 (by decide)).trans (E9_v3 m ρ c)
theorem E10_v6 : W10 m ρ c (Proc.devRef .tc main_v6) = Cert.ReferenceIdeal.ReadP.val_main_v6 (F := Ideal) (m ((c.tc : Thread nD τ).loc main_arg1)) :=
  (W10_of_ne m ρ c main_v6 (by decide)).trans (E9_v6 m ρ c)
theorem E10_v32 : W10 m ρ c (Proc.devRef .tc main_v32) = Cert.ReferenceIdeal.ReadP.val_main_v32 (F := Ideal) (m ((c.tc : Thread nD τ).loc main_arg1)) :=
  (W10_of_ne m ρ c main_v32 (by decide)).trans (E9_v32 m ρ c)
theorem E10_arg2 : W10 m ρ c (Proc.devRef .tc main_arg2) = (m ((c.tc : Thread nD τ).loc main_arg2)) :=
  (W10_of_ne m ρ c main_arg2 (by decide)).trans (E9_arg2 m ρ c)
theorem E10_arg8 : W10 m ρ c (Proc.devRef .tc main_arg8) = (m ((c.tc : Thread nD τ).loc main_arg8)) :=
  (W10_of_ne m ρ c main_arg8 (by decide)).trans (E9_arg8 m ρ c)
theorem E10_arg9 : W10 m ρ c (Proc.devRef .tc main_arg9) = (m ((c.tc : Thread nD τ).loc main_arg9)) :=
  (W10_of_ne m ρ c main_arg9 (by decide)).trans (E9_arg9 m ρ c)
theorem E10_arg10 : W10 m ρ c (Proc.devRef .tc main_arg10) = (m ((c.tc : Thread nD τ).loc main_arg10)) :=
  (W10_of_ne m ρ c main_arg10 (by decide)).trans (E9_arg10 m ρ c)

/-! ### The third layer's aggregation and bias -/

theorem E11_v75 : W11 m ρ c (Proc.devRef .tc main_v75) = Cert.ReferenceIdeal.ReadP.val_main_v79 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := s5_v75 (W10 m ρ c) _ _ _ _ _ _ _ (E10_v63 m ρ c) (E10_v3 m ρ c) (E10_v6 m ρ c) (E10_v32 m ρ c)
theorem E11_v76 : W11 m ρ c (Proc.devRef .tc main_v76) = shapeCast S1x128 (m ((c.tc : Thread nD τ).loc main_arg8)) shapeCasts_S128_S1x128 :=
  (s5_v76 (W10 m ρ c)).trans (congrArg (fun t => shapeCast S1x128 t shapeCasts_S128_S1x128) (E10_arg8 m ρ c))
theorem E11_arg2 : W11 m ρ c (Proc.devRef .tc main_arg2) = (m ((c.tc : Thread nD τ).loc main_arg2)) :=
  (pass_hostOps5_arg2 (W10 m ρ c)).trans (E10_arg2 m ρ c)
theorem E11_arg9 : W11 m ρ c (Proc.devRef .tc main_arg9) = (m ((c.tc : Thread nD τ).loc main_arg9)) :=
  (pass_hostOps5_arg9 (W10 m ρ c)).trans (E10_arg9 m ρ c)
theorem E11_arg10 : W11 m ρ c (Proc.devRef .tc main_arg10) = (m ((c.tc : Thread nD τ).loc main_arg10)) :=
  (pass_hostOps5_arg10 (W10 m ρ c)).trans (E10_arg10 m ρ c)
theorem E12_v77 : W12 m ρ c (Proc.devRef .tc main_v77) = Cert.ReferenceIdeal.ReadP.val_main_v82 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W12_arr m ρ c 2).trans ((Cert.KernelIdeal.Blocks5.final (V11 m ρ) c).trans
    ((congrArg₂ (rowShift (M := 100000) (N := 128)) (E11_v75 m ρ c) (E11_v76 m ρ c)).trans (Cert.Bridge.shift_v82 _ _ _ _ _ _ _ _ _)))
theorem E12_arg2 : W12 m ρ c (Proc.devRef .tc main_arg2) = (m ((c.tc : Thread nD τ).loc main_arg2)) :=
  (W12_of_ne m ρ c main_arg2 (by decide)).trans (E11_arg2 m ρ c)
theorem E12_arg9 : W12 m ρ c (Proc.devRef .tc main_arg9) = (m ((c.tc : Thread nD τ).loc main_arg9)) :=
  (W12_of_ne m ρ c main_arg9 (by decide)).trans (E11_arg9 m ρ c)
theorem E12_arg10 : W12 m ρ c (Proc.devRef .tc main_arg10) = (m ((c.tc : Thread nD τ).loc main_arg10)) :=
  (W12_of_ne m ρ c main_arg10 (by decide)).trans (E11_arg10 m ρ c)

/-! ### The mean pooling and the head -/

theorem E13_v89 : W13 m ρ c (Proc.devRef .tc main_v89) = Cert.ReferenceIdeal.ReadP.val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := s6_v89 (W12 m ρ c) _ _ _ _ _ _ _ _ _ (E12_v77 m ρ c) (E12_arg2 m ρ c)
theorem E13_v90 : W13 m ρ c (Proc.devRef .tc main_v90) = shapeCast S1x1 (m ((c.tc : Thread nD τ).loc main_arg10)) shapeCasts_S1_S1x1 :=
  (s6_v90 (W12 m ρ c)).trans (congrArg (fun t => shapeCast S1x1 t shapeCasts_S1_S1x1) (E12_arg10 m ρ c))
theorem E13_arg9 : W13 m ρ c (Proc.devRef .tc main_arg9) = (m ((c.tc : Thread nD τ).loc main_arg9)) :=
  (pass_hostOps6_arg9 (W12 m ρ c)).trans (E12_arg9 m ρ c)
/-- The result buffer at the last boundary is the reference's result as a function of the launch arguments. -/
theorem E14_v91 : W14 m ρ c (Proc.devRef .tc main_v91) = Cert.ReferenceIdeal.ReadP.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (W14_arr m ρ c 3).trans ((Cert.KernelIdeal.Blocks6.final (V13 m ρ) c).trans
    ((head_congr (E13_v89 m ρ c) (E13_arg9 m ρ c) (E13_v90 m ρ c)).trans (Cert.Bridge.head_v104 _ _ _ _ _ _ _ _ _ _ _ _)))

end Cert.KernelIdeal.Fold

end
-- ==== Proof.lean ====
/-
  A three-layer graph convolution with mean pooling and a logistic head, as a kernel program and as its reference.

  Both programs build the same graph normalisation from the edge list (self loops appended, in-degrees by a scatter-add
  of ones, inverse square roots where the degree is positive, one coefficient per edge), aggregate each layer with the
  same gather, scale and scatter-add, and pool with the same scatter-adds and quotient; those host operations are
  literally the same on both sides. The kernel program differs only where it runs a pipelined region: each dense
  projection is computed in twenty row blocks against the whole weight matrix, with operands rounded to a shorter format
  (the identity on the extended reals) — entry by entry the reference's dot_general; each bias step adds the bias row
  to twenty row blocks and, in the hidden layers, takes the maximum with zero — the reference's broadcast, add and
  relu; the head applies the logistic function, which on the extended reals is by definition the reference's
  1 / (1 + exp (-x)). No law beyond these identifications is used, so the precondition is never opened.

  The kernel program's run names its result at the last of fourteen boundaries (KernelRun); the regions' arrays are read
  from their blocks (Region0 .. Region6); Fold carries every live buffer through the boundaries as the reference's own
  stage values of the launch arguments (through Bridge); the reference's run and its reading stage by stage are the
  modules RefRunPatched and RefReadPatched.
-/
import proofs.«141672_j25460566131065_1_alg».proof.Defs
import proofs.«141672_j25460566131065_1_alg».proof.Proof.Gen.Kernel
import proofs.«141672_j25460566131065_1_alg».proof.Proof.Gen.Kernel.Skeleton
import proofs.«141672_j25460566131065_1_alg».proof.Proof.Gen.Kernel.Launch
import proofs.«141672_j25460566131065_1_alg».proof.Proof.Gen.Kernel.Points
import proofs.«141672_j25460566131065_1_alg».proof.Proof.Gen.Kernel.Frame
import proofs.«141672_j25460566131065_1_alg».proof.Proof.Gen.KernelIdeal
import proofs.«141672_j25460566131065_1_alg».proof.Proof.Gen.KernelIdeal.Skeleton
import proofs.«141672_j25460566131065_1_alg».proof.Proof.Gen.KernelIdeal.Launch
import proofs.«141672_j25460566131065_1_alg».proof.Proof.Gen.KernelIdeal.Points
import proofs.«141672_j25460566131065_1_alg».proof.Proof.Gen.KernelIdeal.Frame
import proofs.«141672_j25460566131065_1_alg».proof.Proof.Gen.ReferenceIdeal
import proofs.«141672_j25460566131065_1_alg».proof.Proof.Gen.Pre_finite_inputs
import proofs.«141672_j25460566131065_1_alg».proof.Proof.KernelRun
import proofs.«141672_j25460566131065_1_alg».proof.Proof.Fold
import proofs.«141672_j25460566131065_1_alg».proof.Proof.RefRunPatched
import proofs.«141672_j25460566131065_1_alg».proof.Proof.RefReadPatched
import Idealize.ShloMosaic.Adequacy
import Idealize.ShloMosaic.Init

set_option maxRecDepth 16384

noncomputable section

namespace Cert.Proof

open Idealize.ShloMosaic Idealize.ShloMosaic.TcCoe Idealize.SL.Sem

/-- The reference program runs and leaves its arguments as launched: its run with the result dropped. -/
theorem frame_reference [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the same result: the reference's last stage value of
    the arguments — the kernel program's last boundary holds it, and the reference's run term is it. -/
theorem algebraic [hK : Cert.KernelIdeal.Facts] [hR : Cert.ReferenceIdeal.Facts] [hP : Cert.Pre_finite_inputs.Facts] :
    Cert.algebraic_KernelIdeal_ReferenceIdeal := by
  intro m ρ m' ρ' _ hagree
  refine ⟨fun c => Cert.ReferenceIdeal.ReadP.val_main_v104 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold.E14_v91 m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v104_eq]
    obtain ⟨h0, h1, h2, h3, h4, h5, h6, h7, h8, h9, h10⟩ := hagree c
    rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
